-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x128 : Shape := ⟨3, ![128, 4096, 128]⟩
abbrev S2x128 : Shape := ⟨2, ![2, 128]⟩
abbrev S2 : Shape := ⟨1, ![2]⟩
abbrev S1x2 : Shape := ⟨2, ![1, 2]⟩
abbrev S1 : Shape := ⟨1, ![1]⟩
abbrev S64x2 : Shape := ⟨2, ![64, 2]⟩
abbrev S64 : Shape := ⟨1, ![64]⟩
abbrev S_ : Shape := ⟨0, ![]⟩

class Facts : Prop where
  bcast_S_S128x4096x128 : S_.BroadcastsInDim S128x4096x128 (![] : Fin 0 → Fin S128x4096x128.rank)
  reducesTo_S128x4096x128_S_d0_1_2 : S128x4096x128.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S1 .f32) (main_arg5 : FVec F S64x2 .f32) (main_arg6 : FVec F S64 .f32) (main_v13 : IVec S_ 1) (main_v16 : IVec S1x2 1) : IVec S_ 1 :=
  let main_c_5 : IVec S_ 1 := constantI S_ 1 1#1
  let main_v17 : IVec S_ 1 := (fun x v => Host.reduce IntOp.andi x v reducesTo_S1x2_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S64x2 .f32 := Host.absf main_arg5
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S128x4096x128 .f32) (main_arg1 : FVec F S2x128 .f32) (main_arg2 : FVec F S2 .f32) (main_arg3 : FVec F S1x2 .f32) (main_arg4 : FVec F S1 .f32) (main_arg5 : FVec F S64x2 .f32) (main_arg6 : FVec F S64 .f32) : IVec S_ 1 :=
  let main_v0 : FVec F S128x4096x128 .f32 := Host.absf main_arg0
  let main_cst : FVec F S_ .f32 := constant S_ .f32 0x7F800000#32
  let main_v1 : FVec F S128x4096x128 .f32 := broadcastInDim S128x4096x128 ![] bcast_S_S128x4096x128 main_cst
  let main_v2 : IVec S128x4096x128 1 := cmpf .olt main_v0 main_v1
  let main_c : IVec S_ 1 := constantI S_ 1 1#1
  let main_v3 : IVec S_ 1 := (fun x v => Host.reduce IntOp.andi x v reducesTo_S128x4096x128_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S1x2 .f32 := Host.absf main_arg3
  let main_cst_4 : FVec F S_ .f32 := constant S_ .f32 0x7F800000#32
  let main_v15 : FVec F S1x2 .f32 := broadcastInDim S1x2 ![] bcast_S_S1x2 main_cst_4
  let main_v16 : IVec S1x2 1 := cmpf .olt main_v14 main_v15
  fn_part1 (F := F) main_arg4 main_arg5 main_arg6 main_v13 main_v16
-- ==== Kernel.lean ====
abbrev S128x4096x128 : Shape := ⟨3, ![128, 4096, 128]⟩
abbrev S2x128 : Shape := ⟨2, ![2, 128]⟩
abbrev S2 : Shape := ⟨1, ![2]⟩
abbrev S1x2 : Shape := ⟨2, ![1, 2]⟩
abbrev S1 : Shape := ⟨1, ![1]⟩
abbrev S64x2 : Shape := ⟨2, ![64, 2]⟩
abbrev S64 : Shape := ⟨1, ![64]⟩
abbrev S1x1 : Shape := ⟨2, ![1, 1]⟩
abbrev S1x64 : Shape := ⟨2, ![1, 64]⟩
abbrev S2x64 : Shape := ⟨2, ![2, 64]⟩
abbrev S128x64x64 : Shape := ⟨3, ![128, 64, 64]⟩
abbrev S1x4096x128 : Shape := ⟨3, ![1, 4096, 128]⟩
abbrev S1x64x64 : Shape := ⟨3, ![1, 64, 64]⟩
abbrev S4096x128 : Shape := ⟨2, ![4096, 128]⟩
abbrev S4096x2 : Shape := ⟨2, ![4096, 2]⟩
abbrev S4096x1 : Shape := ⟨2, ![4096, 1]⟩
abbrev S4094x1 : Shape := ⟨2, ![4094, 1]⟩
abbrev S4094 : Shape := ⟨1, ![4094]⟩
abbrev S64x64 : Shape := ⟨2, ![64, 64]⟩

abbrev nBuf : Space → Nat
  | .hbm => 12
  | .vmem => 10
  | .smem => 0
  | _ => 0

abbrev bufTy : (tb : Table) → Fin (tcTables nBuf tb) → BufTy
  | .hbm, ⟨0, _⟩ => ⟨S128x4096x128, .f32⟩
  | .hbm, ⟨1, _⟩ => ⟨S2x128, .f32⟩
  | .hbm, ⟨2, _⟩ => ⟨S2, .f32⟩
  | .hbm, ⟨3, _⟩ => ⟨S1x2, .f32⟩
  | .hbm, ⟨4, _⟩ => ⟨S1, .f32⟩
  | .hbm, ⟨5, _⟩ => ⟨S64x2, .f32⟩
  | .hbm, ⟨6, _⟩ => ⟨S64, .f32⟩
  | .hbm, ⟨7, _⟩ => ⟨S1x2, .f32⟩
  | .hbm, ⟨8, _⟩ => ⟨S1x1, .f32⟩
  | .hbm, ⟨9, _⟩ => ⟨S1x64, .f32⟩
  | .hbm, ⟨10, _⟩ => ⟨S2x64, .f32⟩
  | .hbm, ⟨11, _⟩ => ⟨S128x64x64, .f32⟩
  | .local _ .vmem, ⟨0, _⟩ => ⟨S1x4096x128, .f32⟩
  | .local _ .vmem, ⟨1, _⟩ => ⟨S1x4096x128, .f32⟩
  | .local _ .vmem, ⟨2, _⟩ => ⟨S2x128, .f32⟩
  | .local _ .vmem, ⟨3, _⟩ => ⟨S1x2, .f32⟩
  | .local _ .vmem, ⟨4, _⟩ => ⟨S1x2, .f32⟩
  | .local _ .vmem, ⟨5, _⟩ => ⟨S1x1, .f32⟩
  | .local _ .vmem, ⟨6, _⟩ => ⟨S2x64, .f32⟩
  | .local _ .vmem, ⟨7, _⟩ => ⟨S1x64, .f32⟩
  | .local _ .vmem, ⟨8, _⟩ => ⟨S1x64x64, .f32⟩
  | .local _ .vmem, ⟨9, _⟩ => ⟨S1x64x64, .f32⟩
  | _, _ => ⟨S128x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2_S1x2 : S2.ShapeCasts S1x2
  shapeCasts_S1_S1x1 : S1.ShapeCasts S1x1
  shapeCasts_S64_S1x64 : S64.ShapeCasts S1x64
  transposes_S64x2_S2x64_1_0 : S64x2.Transposes [1, 0] S2x64
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  slices_S4096x2_o0_0_S4096x1 : S4096x2.Slices ![0, 0] S4096x1
  slices_S1x2_o0_0_S1x1 : S1x2.Slices ![0, 0] S1x1
  inpos_S1x1_p0_0 : ∀ a, (![0, 0] : Fin 2 → Nat) a < S1x1.size a
  slices_S4096x2_o0_1_S4096x1 : S4096x2.Slices ![0, 1] S4096x1
  slices_S1x2_o0_1_S1x1 : S1x2.Slices ![0, 1] S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  slices_S4096x1_o2_0_S4094x1 : S4096x1.Slices ![2, 0] S4094x1
  slices_S4096x1_o0_0_S4094x1 : S4096x1.Slices ![0, 0] S4094x1
  reduces_S4094x1_S4094 : S4094x1.Reduces [1] S4094
  shapeCasts_S4094_S4094x1 : S4094.ShapeCasts S4094x1
  reduces_S4094x1_S1 : S4094x1.Reduces [0] S1
  broadcasts_S1x1_S4094x1 : S1x1.Broadcasts S4094x1
  inb_S2x64_S1x64_0_0 : ∀ a, (![0, 0] : Fin 2 → Nat) a + S1x64.size a ≤ S2x64.size a
  h_S1x64 : 0 < S1x64.numel
  shapeCasts_S1x64_S1x64 : S1x64.ShapeCasts S1x64
  inb_S2x64_S1x64_1_0 : ∀ a, (![1, 0] : Fin 2 → Nat) a + S1x64.size a ≤ S2x64.size a
  broadcasts_S1x1_S1x64 : S1x1.Broadcasts S1x64
  inb_S1x64_S1x64_0_0 : ∀ a, (![0, 0] : Fin 2 → Nat) a + S1x64.size a ≤ S1x64.size a
  broadcasts_S1x64_S64x64 : S1x64.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S4096x128_S2x128_S4096x2_1_1_0_0_n_n_wf : DotDims.WF S4096x128 S2x128 S4096x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S128x4096x128.size a
  hwx0_0 : ∀ i : grid0.Coords, EltTy.bits .f32 = 32 ∨ (Rect.block (s := S128x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x64.size a ≤ S128x64x64.size a
  hwx0_7 : ∀ i : grid0.Coords, EltTy.bits .f32 = 32 ∨ (Rect.block (s := S128x64x64) S1x64x64.size (cc0_transform_7 i) (hinb0_7 i)).WholeWords (EltTy.packing .f32)

variable [Facts₀]

def dot_S4096x128_S2x128_S4096x2_1_1_0_0_n_n : DotDims S4096x128 S2x128 S4096x2 where
  lhsContracting := [1]
  rhsContracting := [1]
  lhsNonContracting := [0]
  rhsNonContracting := [0]
  lhsBatch := []
  rhsBatch := []
  wf := dot_S4096x128_S2x128_S4096x2_1_1_0_0_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x4096x128 : Shape := ⟨3, ![128, 4096, 128]⟩
abbrev S2x128 : Shape := ⟨2, ![2, 128]⟩
abbrev S2 : Shape := ⟨1, ![2]⟩
abbrev S1x2 : Shape := ⟨2, ![1, 2]⟩
abbrev S1 : Shape := ⟨1, ![1]⟩
abbrev S64x2 : Shape := ⟨2, ![64, 2]⟩
abbrev S64 : Shape := ⟨1, ![64]⟩
abbrev S128x4096x2 : Shape := ⟨3, ![128, 4096, 2]⟩
abbrev S1x1x2 : Shape := ⟨3, ![1, 1, 2]⟩
abbrev S_ : Shape := ⟨0, ![]⟩
abbrev S128x4096x1 : Shape := ⟨3, ![128, 4096, 1]⟩
abbrev S1x1x1 : Shape := ⟨3, ![1, 1, 1]⟩
abbrev S128x4094x1 : Shape := ⟨3, ![128, 4094, 1]⟩
abbrev S128x4094 : Shape := ⟨2, ![128, 4094]⟩
abbrev S128 : Shape := ⟨1, ![128]⟩
abbrev S128x1 : Shape := ⟨2, ![128, 1]⟩
abbrev S128x2 : Shape := ⟨2, ![128, 2]⟩
abbrev S2x64 : Shape := ⟨2, ![2, 64]⟩
abbrev S128x64 : Shape := ⟨2, ![128, 64]⟩
abbrev S1x64 : Shape := ⟨2, ![1, 64]⟩
abbrev S128x1x64 : Shape := ⟨3, ![128, 1, 64]⟩
abbrev S128x64x64 : Shape := ⟨3, ![128, 64, 64]⟩

abbrev nBuf : Space → Nat
  | .hbm => 69
  | .vmem => 0
  | .smem => 0
  | _ => 0

abbrev bufTy : (tb : Table) → Fin (tcTables nBuf tb) → BufTy
  | .hbm, ⟨0, _⟩ => ⟨S128x4096x128, .f32⟩
  | .hbm, ⟨1, _⟩ => ⟨S2x128, .f32⟩
  | .hbm, ⟨2, _⟩ => ⟨S2, .f32⟩
  | .hbm, ⟨3, _⟩ => ⟨S1x2, .f32⟩
  | .hbm, ⟨4, _⟩ => ⟨S1, .f32⟩
  | .hbm, ⟨5, _⟩ => ⟨S64x2, .f32⟩
  | .hbm, ⟨6, _⟩ => ⟨S64, .f32⟩
  | .hbm, ⟨7, _⟩ => ⟨S128x4096x2, .f32⟩
  | .hbm, ⟨8, _⟩ => ⟨S1x1x2, .f32⟩
  | .hbm, ⟨9, _⟩ => ⟨S128x4096x2, .f32⟩
  | .hbm, ⟨10, _⟩ => ⟨S128x4096x2, .f32⟩
  | .hbm, ⟨11, _⟩ => ⟨S_, .f32⟩
  | .hbm, ⟨12, _⟩ => ⟨S128x4096x2, .f32⟩
  | .hbm, ⟨13, _⟩ => ⟨S128x4096x2, .f32⟩
  | .hbm, ⟨14, _⟩ => ⟨S128x4096x1, .f32⟩
  | .hbm, ⟨15, _⟩ => ⟨S1x1x1, .f32⟩
  | .hbm, ⟨16, _⟩ => ⟨S128x4096x1, .f32⟩
  | .hbm, ⟨17, _⟩ => ⟨S128x4096x1, .f32⟩
  | .hbm, ⟨18, _⟩ => ⟨S128x4094x1, .f32⟩
  | .hbm, ⟨19, _⟩ => ⟨S128x4094x1, .f32⟩
  | .hbm, ⟨20, _⟩ => ⟨S128x4094x1, .f32⟩
  | .hbm, ⟨21, _⟩ => ⟨S128x4094x1, .f32⟩
  | .hbm, ⟨22, _⟩ => ⟨S_, .f32⟩
  | .hbm, ⟨23, _⟩ => ⟨S128x4094, .f32⟩
  | .hbm, ⟨24, _⟩ => ⟨S128x4094, .f32⟩
  | .hbm, ⟨25, _⟩ => ⟨S_, .f32⟩
  | .hbm, ⟨26, _⟩ => ⟨S128x4094, .f32⟩
  | .hbm, ⟨27, _⟩ => ⟨S128x4094, .f32⟩
  | .hbm, ⟨28, _⟩ => ⟨S128x4094, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x4094, .f32⟩
  | .hbm, ⟨42, _⟩ => ⟨S128x4094, .f32⟩
  | .hbm, ⟨43, _⟩ => ⟨S128x4094, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128x1, .f32⟩
  | .hbm, ⟨59, _⟩ => ⟨S128x1, .f32⟩
  | .hbm, ⟨60, _⟩ => ⟨S128x2, .f32⟩
  | .hbm, ⟨61, _⟩ => ⟨S2x64, .f32⟩
  | .hbm, ⟨62, _⟩ => ⟨S128x64, .f32⟩
  | .hbm, ⟨63, _⟩ => ⟨S1x64, .f32⟩
  | .hbm, ⟨64, _⟩ => ⟨S128x64, .f32⟩
  | .hbm, ⟨65, _⟩ => ⟨S128x64, .f32⟩
  | .hbm, ⟨66, _⟩ => ⟨S128x64, .f32⟩
  | .hbm, ⟨67, _⟩ => ⟨S128x1x64, .f32⟩
  | .hbm, ⟨68, _⟩ => ⟨S128x64x64, .f32⟩
  | _, _ => ⟨S128x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_call2_call0_cst : Ref sig .tc := ⟨.hbm, 35, rfl⟩
abbrev main_call2_call0_v0 : Ref sig .tc := ⟨.hbm, 36, rfl⟩
abbrev main_call2_call0_v1 : Ref sig .tc := ⟨.hbm, 37, rfl⟩
abbrev main_call2_call0_cst_0 : Ref sig .tc := ⟨.hbm, 38, rfl⟩
abbrev main_call2_call0_v2 : Ref sig .tc := ⟨.hbm, 39, rfl⟩
abbrev main_call2_call0_v3 : Ref sig .tc := ⟨.hbm, 40, rfl⟩
abbrev main_call2_call0_v4 : Ref sig .tc := ⟨.hbm, 41, rfl⟩
abbrev main_call2_call0_v5 : Ref sig .tc := ⟨.hbm, 42, rfl⟩
abbrev main_call2_call0_v6 : Ref sig .tc := ⟨.hbm, 43, rfl⟩
abbrev main_call2_call0_v7 : Ref sig .tc := ⟨.hbm, 44, rfl⟩
abbrev main_call2_call0_cst_1 : Ref sig .tc := ⟨.hbm, 45, rfl⟩
abbrev main_call2_call0_v8 : Ref sig .tc := ⟨.hbm, 46, rfl⟩
abbrev main_call2_call0_cst_2 : Ref sig .tc := ⟨.hbm, 47, rfl⟩
abbrev main_call2_call0_v9 : Ref sig .tc := ⟨.hbm, 48, rfl⟩
abbrev main_call2_call0_v10 : Ref sig .tc := ⟨.hbm, 49, rfl⟩
abbrev main_call2_call0_v11 : Ref sig .tc := ⟨.hbm, 50, rfl⟩
abbrev main_call2_call0_cst_3 : Ref sig .tc := ⟨.hbm, 51, rfl⟩
abbrev main_call2_call0_v12 : Ref sig .tc := ⟨.hbm, 52, rfl⟩
abbrev main_call2_call0_cst_4 : Ref sig .tc := ⟨.hbm, 53, rfl⟩
abbrev main_call2_call0_call0_v0 : Ref sig .tc := ⟨.hbm, 54, rfl⟩
abbrev main_call2_call0_call0_v1 : Ref sig .tc := ⟨.hbm, 55, rfl⟩
abbrev main_call2_v0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S128x4096x2_0_1_2 : S1x1x2.BroadcastsInDim S128x4096x2 (![0, 1, 2] : Fin 3 → Fin S128x4096x2.rank)
  bcast_S_S128x4096x2 : S_.BroadcastsInDim S128x4096x2 (![] : Fin 0 → Fin S128x4096x2.rank)
  bcast_S1_S1x1x1_2 : S1.BroadcastsInDim S1x1x1 (![2] : Fin 1 → Fin S1x1x1.rank)
  bcast_S1x1x1_S128x4096x1_0_1_2 : S1x1x1.BroadcastsInDim S128x4096x1 (![0, 1, 2] : Fin 3 → Fin S128x4096x1.rank)
  slices_S128x4096x1_S128x4094x1_0_2_0 : S128x4096x1.Slices ![0, 2, 0] S128x4094x1
  slices_S128x4096x1_S128x4094x1_0_0_0 : S128x4096x1.Slices ![0, 0, 0] S128x4094x1
  reducesTo_S128x4094x1_S128x4094_d2 : S128x4094x1.ReducesTo [2] S128x4094
  h_S_ : 0 < S_.numel
  bcast_S_S128x4094 : S_.BroadcastsInDim S128x4094 (![] : Fin 0 → Fin S128x4094.rank)
  reducesTo_S128x4094_S128_d1 : S128x4094.ReducesTo [1] S128
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S128x1_S128x4094_0_1 : S128x1.BroadcastsInDim S128x4094 (![0, 1] : Fin 2 → Fin S128x4094.rank)
  concatenates_S128x1_S128x1_S128x2_d1 : Shape.Concatenates [S128x1, S128x1] S128x2 1
  transposes_S64x2_S2x64_1_0 : S64x2.Transposes [1, 0] S2x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S128x64_S128x1x64_0_2 : S128x64.BroadcastsInDim S128x1x64 (![0, 2] : Fin 2 → Fin S128x1x64.rank)
  bcast_S128x1x64_S128x64x64_0_1_2 : S128x1x64.BroadcastsInDim S128x64x64 (![0, 1, 2] : Fin 3 → Fin S128x64x64.rank)
  dot_S128x4096x128_S2x128_S128x4096x2_2_1_01_0_n_n_wf : DotDims.WF S128x4096x128 S2x128 S128x4096x2 [2] [1] [0, 1] [0] [] []
  dot_S128x4096x2_S1x2_S128x4096x1_2_1_01_0_n_n_wf : DotDims.WF S128x4096x2 S1x2 S128x4096x1 [2] [1] [0, 1] [0] [] []
  dot_S128x2_S2x64_S128x64_1_0_0_1_n_n_wf : DotDims.WF S128x2 S2x64 S128x64 [1] [0] [0] [1] [] []

variable [Facts₀]

def dot_S128x4096x128_S2x128_S128x4096x2_2_1_01_0_n_n : DotDims S128x4096x128 S2x128 S128x4096x2 where
  lhsContracting := [2]
  rhsContracting := [1]
  lhsNonContracting := [0, 1]
  rhsNonContracting := [0]
  lhsBatch := []
  rhsBatch := []
  wf := dot_S128x4096x128_S2x128_S128x4096x2_2_1_01_0_n_n_wf
def dot_S128x4096x2_S1x2_S128x4096x1_2_1_01_0_n_n : DotDims S128x4096x2 S1x2 S128x4096x1 where
  lhsContracting := [2]
  rhsContracting := [1]
  lhsNonContracting := [0, 1]
  rhsNonContracting := [0]
  lhsBatch := []
  rhsBatch := []
  wf := dot_S128x4096x2_S1x2_S128x4096x1_2_1_01_0_n_n_wf
def dot_S128x2_S2x64_S128x64_1_0_0_1_n_n : DotDims S128x2 S2x64 S128x64 where
  lhsContracting := [1]
  rhsContracting := [0]
  lhsNonContracting := [0]
  rhsNonContracting := [1]
  lhsBatch := []
  rhsBatch := []
  wf := dot_S128x2_S2x64_S128x64_1_0_0_1_n_n_wf

class Facts : Prop extends Facts₀ where

variable [Facts]
-- ==== Proof.Spec.lean ====
/-
  The function both programs compute, per batch row, on the extended reals.

  A row of the input is a 4096 × 128 matrix X. A two-unit hidden layer h(s, e) = max(Σ_d X(s, d) · w1(e, d) + b1(e), 0) is
  projected to one number per position, p(s) = h(s, 0) · w2(0) + h(s, 1) · w2(1) + b2. The lag-two differences of p are
  taken in absolute value through a square root of a square, ℓ(s) = log(√((p(s + 2) − p(s))²) + ε) for the 4094 positions
  that have a partner two steps ahead. The mean of ℓ is its sum over 4094, its spread the square root of the sum of squared
  deviations from the mean over 4093. Output column j is tanh(mean · w3(j, 0) + spread · w3(j, 1) + b3(j)), the same on
  every one of the 64 output rows of the batch entry.

  The three float literals (ε, 4094, 4093) are kept as the patterns both programs spell; only 4094 − 1 = 4093 is ever
  evaluated, in the module of constants.
-/
import Idealize.ShloMosaic.PureOps.Ideal
import Idealize.ShloMosaic.Lib.ValueIdx

noncomputable section

open scoped BigOperators

namespace Cert.DelayStats

open Idealize.ShloMosaic Idealize.ShloMosaic.ValueIdx

/-- The small positive number added under the logarithm. -/
abbrev epsLit : EReal := Ideal.ofBits .f32 0x358637BD#32
/-- The number of lag-two differences, 4094, as the pattern both programs divide the sum by. -/
abbrev countLit : EReal := Ideal.ofBits .f32 0x457FE000#32
/-- One less, 4093: the divisor of the unbiased spread. -/
abbrev countLessOneLit : EReal := Ideal.ofBits .f32 0x457FD000#32

/-- The hidden layer: unit e at position s. -/
def hidden (X : Fin 4096 → Fin 128 → EReal) (w1 : Fin 2 → Fin 128 → EReal) (b1 : Fin 2 → EReal) (s : Fin 4096) (e : Fin 2) : EReal :=
  max ((∑ d : Fin 128, X s d * w1 e d) + b1 e) 0

/-- The projection of the two hidden units to one number per position. -/
def proj (X : Fin 4096 → Fin 128 → EReal) (w1 : Fin 2 → Fin 128 → EReal) (b1 : Fin 2 → EReal) (w2 : Fin 2 → EReal) (b2 : EReal)
    (s : Fin 4096) : EReal :=
  hidden X w1 b1 s 0 * w2 0 + hidden X w1 b1 s 1 * w2 1 + b2

/-- Position s + 2 of the 4096, for s among the first 4094. -/
def ahead (s : Fin 4094) : Fin 4096 := ⟨s.val + 2, by have := s.isLt; omega⟩
/-- Position s of the 4096, for s among the first 4094. -/
def here (s : Fin 4094) : Fin 4096 := ⟨s.val, by have := s.isLt; omega⟩

/-- The logarithm of the size of the lag-two difference at s. -/
def logDiff (X : Fin 4096 → Fin 128 → EReal) (w1 : Fin 2 → Fin 128 → EReal) (b1 : Fin 2 → EReal) (w2 : Fin 2 → EReal) (b2 : EReal)
    (s : Fin 4094) : EReal :=
  Ideal.log (Ideal.sqrt ((proj X w1 b1 w2 b2 (ahead s) - proj X w1 b1 w2 b2 (here s))
      * (proj X w1 b1 w2 b2 (ahead s) - proj X w1 b1 w2 b2 (here s))) + epsLit)

/-- The mean of 4094 numbers. -/
def mean (l : Fin 4094 → EReal) : EReal := Ideal.div (∑ s : Fin 4094, l s) countLit

/-- Their unbiased spread. -/
def spread (l : Fin 4094 → EReal) : EReal :=
  Ideal.sqrt (Ideal.div (∑ s : Fin 4094, (l s - mean l) * (l s - mean l)) countLessOneLit)

/-- Output column j from the two statistics. -/
def feature (l : Fin 4094 → EReal) (r0 r1 b3 : Fin 64 → EReal) (j : Fin 64) : EReal :=
  Ideal.tanh (mean l * r0 j + spread l * r1 j + b3 j)

/-- The whole result array as one function of the seven argument arrays, index by index: entry (b, i, j) is output column j
    of batch row b. -/
def result (x : (⟨3, ![128, 4096, 128]⟩ : Shape).Idx → EReal) (w1 : (⟨2, ![2, 128]⟩ : Shape).Idx → EReal)
    (b1 : (⟨1, ![2]⟩ : Shape).Idx → EReal) (w2 : (⟨2, ![1, 2]⟩ : Shape).Idx → EReal) (b2 : (⟨1, ![1]⟩ : Shape).Idx → EReal)
    (w3 : (⟨2, ![64, 2]⟩ : Shape).Idx → EReal) (b3 : (⟨1, ![64]⟩ : Shape).Idx → EReal) :
    (⟨3, ![128, 64, 64]⟩ : Shape).Idx → EReal := fun i =>
  feature (logDiff (fun s d => x (ix3 (i 0) s d)) (fun e d => w1 (ix2 e d)) (fun e => b1 (ix1 e))
      (fun e => w2 (ix2 (0 : Fin 1) e)) (b2 (ix1 (0 : Fin 1))))
    (fun j => w3 (ix2 j (0 : Fin 2))) (fun j => w3 (ix2 j (1 : Fin 2))) (fun j => b3 (ix1 j)) (i 2)

/-- The result at an index from any spelling of the row, the weights and the biases that agrees with the argument arrays
    entry by entry. -/
theorem result_apply_of (x : (⟨3, ![128, 4096, 128]⟩ : Shape).Idx → EReal) (w1 : (⟨2, ![2, 128]⟩ : Shape).Idx → EReal)
    (b1 : (⟨1, ![2]⟩ : Shape).Idx → EReal) (w2 : (⟨2, ![1, 2]⟩ : Shape).Idx → EReal) (b2 : (⟨1, ![1]⟩ : Shape).Idx → EReal)
    (w3 : (⟨2, ![64, 2]⟩ : Shape).Idx → EReal) (b3 : (⟨1, ![64]⟩ : Shape).Idx → EReal) (i : (⟨3, ![128, 64, 64]⟩ : Shape).Idx)
    (X : Fin 4096 → Fin 128 → EReal) (W1 : Fin 2 → Fin 128 → EReal) (B1 : Fin 2 → EReal) (W2 : Fin 2 → EReal) (B2 : EReal)
    (R0 R1 B3 : Fin 64 → EReal) (j : Fin 64)
    (hX : ∀ s d, X s d = x (ix3 (i 0) s d)) (hW1 : ∀ e d, W1 e d = w1 (ix2 e d)) (hB1 : ∀ e, B1 e = b1 (ix1 e))
    (hW2 : ∀ e, W2 e = w2 (ix2 (0 : Fin 1) e)) (hB2 : B2 = b2 (ix1 (0 : Fin 1))) (hR0 : ∀ j, R0 j = w3 (ix2 j (0 : Fin 2)))
    (hR1 : ∀ j, R1 j = w3 (ix2 j (1 : Fin 2))) (hB3 : ∀ j, B3 j = b3 (ix1 j)) (hj : j = i 2) :
    feature (logDiff X W1 B1 W2 B2) R0 R1 B3 j = result x w1 b1 w2 b2 w3 b3 i := by
  have e1 : X = fun s d => x (ix3 (i 0) s d) := funext fun s => funext fun d => hX s d
  have e2 : W1 = fun e d => w1 (ix2 e d) := funext fun e => funext fun d => hW1 e d
  have e3 : B1 = fun e => b1 (ix1 e) := funext hB1
  have e4 : W2 = fun e => w2 (ix2 (0 : Fin 1) e) := funext hW2
  have e5 : R0 = fun j => w3 (ix2 j (0 : Fin 2)) := funext hR0
  have e6 : R1 = fun j => w3 (ix2 j (1 : Fin 2)) := funext hR1
  have e7 : B3 = fun j => b3 (ix1 j) := funext hB3
  subst e1 e2 e3 e4 e5 e6 e7 hB2 hj
  rfl

end Cert.DelayStats

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KernelRow.lean ====
/-
  What the kernel body computes from one batch row, position by position.

  The body works on the row X as a 4096 × 128 block. Three stages: the hidden layer as a 4096 × 2 block (a matrix product
  with the weights contracted on their last axis, a bias row broadcast down the positions, a maximum with zero); the
  projection as a 4096 × 1 column (each hidden column scaled by one entry of the second weight row, summed, a bias added);
  and the logarithms as a 4094 × 1 column (the column shifted by two positions less the column itself, squared, summed over
  its single lane, square-rooted, ε added, the logarithm). Each stage read at a position is the specification's
  function of that name, and the body's payload is their composition.
-/
import proofs.«102095_j71683004170598_1_alg».proof.Proof.Gen.KernelIdeal.Skeleton
import proofs.«102095_j71683004170598_1_alg».proof.Proof.Spec
import proofs.«102095_j71683004170598_1_alg».proof.Proof.LibTransposedDot
import proofs.«102095_j71683004170598_1_alg».proof.Proof.LibAxisFold
import proofs.«102095_j71683004170598_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.DelayStats

/-! ## The three stages as the body spells them -/

/-- The hidden layer of a row, as a 4096 × 2 block. -/
def hiddenBlock (v0 : Vec Ideal S1x4096x128 .f32) (v3 : Vec Ideal S2x128 .f32) (v6 : Vec Ideal S1x2 .f32) : FVec Ideal S4096x2 .f32 :=
  maximumf
    (addf
      (matmul dot_S4096x128_S2x128_S4096x2_1_1_0_0_n_n none
        (truncf .bf16 (shapeCast S4096x128 v0 shapeCasts_S1x4096x128_S4096x128) bitsLt_bf16_f32)
        (truncf .bf16 v3 bitsLt_bf16_f32) (constant S4096x2 .f32 0x00000000#32))
      (broadcastTo S4096x2 (shapeCast S1x2 v6 shapeCasts_S1x2_S1x2) broadcasts_S1x2_S4096x2))
    (broadcast S4096x2 (Scalar.ofBits .f32 0x00000000#32))

/-- The projection of a hidden block, as a 4096 × 1 column. -/
def projColumn (v11 : FVec Ideal S4096x2 .f32) (v12 : Vec Ideal S1x2 .f32) (v24 : Vec Ideal S1x1 .f32) : FVec Ideal S4096x1 .f32 :=
  addf
    (addf
      (mulf (extractStridedSlice S4096x1 ![0, 0] v11 slices_S4096x2_o0_0_S4096x1)
        (broadcast S4096x1 (extractAt ![0, 0] (extractStridedSlice S1x1 ![0, 0] v12 slices_S1x2_o0_0_S1x1) inpos_S1x1_p0_0)))
      (mulf (extractStridedSlice S4096x1 ![0, 1] v11 slices_S4096x2_o0_1_S4096x1)
        (broadcast S4096x1 (extractAt ![0, 0] (extractStridedSlice S1x1 ![0, 1] v12 slices_S1x2_o0_1_S1x1) inpos_S1x1_p0_0))))
    (broadcastTo S4096x1 (shapeCast S1x1 v24 shapeCasts_S1x1_S1x1) broadcasts_S1x1_S4096x1)

/-- The logarithms of the lag-two differences of a column, as a 4094 × 1 column. -/
def logColumn (v27 : FVec Ideal S4096x1 .f32) : FVec Ideal S4094x1 .f32 :=
  log
    (addf
      (sqrt
        (shapeCast S4094x1
          (multiReduction .add [1] S4094
            (mulf
              (subf (extractStridedSlice S4094x1 ![2, 0] v27 slices_S4096x1_o2_0_S4094x1)
                (extractStridedSlice S4094x1 ![0, 0] v27 slices_S4096x1_o0_0_S4094x1))
              (subf (extractStridedSlice S4094x1 ![2, 0] v27 slices_S4096x1_o2_0_S4094x1)
                (extractStridedSlice S4094x1 ![0, 0] v27 slices_S4096x1_o0_0_S4094x1)))
            0x00000000#32 reduces_S4094x1_S4094 (.inl rfl) rfl)
          shapeCasts_S4094_S4094x1))
      (broadcast S4094x1 (Scalar.ofBits .f32 0x358637BD#32)))

/-- The body's payload is the three stages composed. -/
theorem pay2_eq (v0 : Vec Ideal S1x4096x128 .f32) (v3 : Vec Ideal S2x128 .f32) (v6 : Vec Ideal S1x2 .f32) (v12 : Vec Ideal S1x2 .f32)
    (v24 : Vec Ideal S1x1 .f32) :
    k0_pay2 v0 v3 v6 v12 v24 = logColumn (projColumn (hiddenBlock v0 v3 v6) v12 v24) := rfl

/-! ## The hidden layer at (s, e) -/

/-- The row block cast to 4096 × 128 reads, at (s, d), the block at (0, s, d). -/
theorem cast_row_apply (v0 : S1x4096x128.Idx → EReal) (h : S1x4096x128.ShapeCasts S4096x128) (s : Fin 4096) (d : Fin 128) :
    shapeCast S4096x128 v0 h (ix2 s d) = v0 (ix3 (0 : Fin 1) s d) :=
  shapeCast_apply v0 h _ _ (by
    rw [Shape.rowMajor_val_three, Shape.rowMajor_val_two]
    show (0 * 4096 + s.val) * 128 + d.val = s.val * 128 + d.val
    omega)

/-- A 1 × 2 row broadcast down 4096 positions reads, at (s, e), the row at (0, e). -/
theorem bias_row_apply (v6 : S1x2.Idx → EReal) (hc : S1x2.ShapeCasts S1x2) (hb : S1x2.Broadcasts S4096x2) (s : Fin 4096) (e : Fin 2) :
    broadcastTo S4096x2 (shapeCast S1x2 v6 hc) hb (ix2 s e) = v6 (ix2 (0 : Fin 1) e) := by
  rw [shapeCast_self]
  exact broadcastTo_apply v6 hb (ix2 s e) (ix2 (0 : Fin 1) e) (fun a => match a with
    | ⟨0, _⟩ => rfl
    | ⟨1, _⟩ => rfl)

theorem hiddenBlock_apply (v0 : Vec Ideal S1x4096x128 .f32) (v3 : Vec Ideal S2x128 .f32) (v6 : Vec Ideal S1x2 .f32) (s : Fin 4096) (e : Fin 2) :
    hiddenBlock v0 v3 v6 (ix2 s e)
      = hidden (fun s d => v0 (ix3 (0 : Fin 1) s d)) (fun e d => v3 (ix2 e d)) (fun e => v6 (ix2 (0 : Fin 1) e)) s e := by
  have hm : matmul (F := Ideal) dot_S4096x128_S2x128_S4096x2_1_1_0_0_n_n none
        (truncf .bf16 (shapeCast S4096x128 v0 shapeCasts_S1x4096x128_S4096x128) bitsLt_bf16_f32)
        (truncf .bf16 v3 bitsLt_bf16_f32) (constant (F := Ideal) S4096x2 .f32 0x00000000#32) (ix2 s e)
      = ∑ d : Fin 128, v0 (ix3 (0 : Fin 1) s d) * v3 (ix2 e d) := by
    refine (TransposedDot.matmul_zero_apply (M := 4096) (K := 128) (N := 2) none
      (truncf .bf16 (shapeCast S4096x128 v0 shapeCasts_S1x4096x128_S4096x128) bitsLt_bf16_f32)
      (truncf .bf16 v3 bitsLt_bf16_f32) s e).trans ?_
    refine Finset.sum_congr rfl fun d _ => ?_
    show shapeCast S4096x128 v0 shapeCasts_S1x4096x128_S4096x128 (ix2 s d) * v3 (ix2 e d) = _
    rw [cast_row_apply]
  show max (matmul (F := Ideal) dot_S4096x128_S2x128_S4096x2_1_1_0_0_n_n none
        (truncf .bf16 (shapeCast S4096x128 v0 shapeCasts_S1x4096x128_S4096x128) bitsLt_bf16_f32)
        (truncf .bf16 v3 bitsLt_bf16_f32) (constant (F := Ideal) S4096x2 .f32 0x00000000#32) (ix2 s e)
      + broadcastTo S4096x2 (shapeCast S1x2 v6 shapeCasts_S1x2_S1x2) broadcasts_S1x2_S4096x2 (ix2 s e))
      (Ideal.ofBits .f32 0x00000000#32) = _
  rw [hm, bias_row_apply, Ideal.ofBits_zero_f32]
  rfl

/-! ## The projection at (s, 0) -/

/-- Column c of a 4096 × 2 block, taken as a slice, reads the block at (s, c). -/
theorem column_apply (v11 : S4096x2.Idx → EReal) (c : Fin 2) (off : Fin 2 → ℕ) (hoff : off = ![0, c.val]) (h : S4096x2.Slices off S4096x1)
    (s : Fin 4096) : extractStridedSlice S4096x1 off v11 h (ix2 s (0 : Fin 1)) = v11 (ix2 s c) := by
  subst hoff
  exact extractStridedSlice_apply _ v11 h _ _ (fun a => match a with
    | ⟨0, _⟩ => by show s.val = 0 + s.val; omega
    | ⟨1, _⟩ => by show c.val = c.val + 0; omega)

/-- Entry c of the 1 × 2 weight row, taken as a 1 × 1 slice and extracted. -/
theorem weight_apply (v12 : S1x2.Idx → EReal) (c : Fin 2) (off : Fin 2 → ℕ) (hoff : off = ![0, c.val]) (h : S1x2.Slices off S1x1)
    (h' : ∀ a, (![0, 0] : Fin 2 → ℕ) a < S1x1.size a) :
    extractAt ![0, 0] (extractStridedSlice S1x1 off v12 h) h' = v12 (ix2 (0 : Fin 1) c) := by
  subst hoff
  exact extractStridedSlice_apply _ v12 h _ _ (fun a => match a with
    | ⟨0, _⟩ => rfl
    | ⟨1, _⟩ => by show c.val = c.val + 0; omega)

/-- The 1 × 1 bias broadcast down 4096 positions reads the bias. -/
theorem bias_one_apply (v24 : S1x1.Idx → EReal) (hc : S1x1.ShapeCasts S1x1) (hb : S1x1.Broadcasts S4096x1) (s : Fin 4096) :
    broadcastTo S4096x1 (shapeCast S1x1 v24 hc) hb (ix2 s (0 : Fin 1)) = v24 (ix2 (0 : Fin 1) (0 : Fin 1)) := by
  rw [shapeCast_self]
  exact broadcastTo_apply v24 hb (ix2 s (0 : Fin 1)) (ix2 (0 : Fin 1) (0 : Fin 1)) (fun a => match a with
    | ⟨0, _⟩ => rfl
    | ⟨1, _⟩ => rfl)

theorem projColumn_apply (v11 : FVec Ideal S4096x2 .f32) (v12 : Vec Ideal S1x2 .f32) (v24 : Vec Ideal S1x1 .f32) (s : Fin 4096) :
    projColumn v11 v12 v24 (ix2 s (0 : Fin 1))
      = v11 (ix2 s (0 : Fin 2)) * v12 (ix2 (0 : Fin 1) (0 : Fin 2)) + v11 (ix2 s (1 : Fin 2)) * v12 (ix2 (0 : Fin 1) (1 : Fin 2))
        + v24 (ix2 (0 : Fin 1) (0 : Fin 1)) := by
  show extractStridedSlice S4096x1 ![0, 0] v11 slices_S4096x2_o0_0_S4096x1 (ix2 s (0 : Fin 1))
        * extractAt ![0, 0] (extractStridedSlice S1x1 ![0, 0] v12 slices_S1x2_o0_0_S1x1) inpos_S1x1_p0_0
      + extractStridedSlice S4096x1 ![0, 1] v11 slices_S4096x2_o0_1_S4096x1 (ix2 s (0 : Fin 1))
        * extractAt ![0, 0] (extractStridedSlice S1x1 ![0, 1] v12 slices_S1x2_o0_1_S1x1) inpos_S1x1_p0_0
      + broadcastTo S4096x1 (shapeCast S1x1 v24 shapeCasts_S1x1_S1x1) broadcasts_S1x1_S4096x1 (ix2 s (0 : Fin 1)) = _
  rw [column_apply v11 (0 : Fin 2) ![0, 0] rfl, column_apply v11 (1 : Fin 2) ![0, 1] rfl, weight_apply v12 (0 : Fin 2) ![0, 0] rfl,
    weight_apply v12 (1 : Fin 2) ![0, 1] rfl, bias_one_apply]

/-! ## The logarithms at (s, 0) -/

/-- The column from position two on, and the column from position zero on, each 4094 long. -/
theorem shifted_apply (v27 : S4096x1.Idx → EReal) (h : S4096x1.Slices ![2, 0] S4094x1) (s : Fin 4094) :
    extractStridedSlice S4094x1 ![2, 0] v27 h (ix2 s (0 : Fin 1)) = v27 (ix2 (ahead s) (0 : Fin 1)) :=
  extractStridedSlice_apply _ v27 h _ _ (fun a => match a with
    | ⟨0, _⟩ => by show s.val + 2 = 2 + s.val; omega
    | ⟨1, _⟩ => rfl)

theorem unshifted_apply (v27 : S4096x1.Idx → EReal) (h : S4096x1.Slices ![0, 0] S4094x1) (s : Fin 4094) :
    extractStridedSlice S4094x1 ![0, 0] v27 h (ix2 s (0 : Fin 1)) = v27 (ix2 (here s) (0 : Fin 1)) :=
  extractStridedSlice_apply _ v27 h _ _ (fun a => match a with
    | ⟨0, _⟩ => by show s.val = 0 + s.val; omega
    | ⟨1, _⟩ => rfl)

theorem logColumn_apply (v27 : FVec Ideal S4096x1 .f32) (s : Fin 4094) :
    logColumn v27 (ix2 s (0 : Fin 1))
      = Ideal.log (Ideal.sqrt ((v27 (ix2 (ahead s) (0 : Fin 1)) - v27 (ix2 (here s) (0 : Fin 1)))
          * (v27 (ix2 (ahead s) (0 : Fin 1)) - v27 (ix2 (here s) (0 : Fin 1)))) + epsLit) := by
  show Ideal.log (Ideal.sqrt (shapeCast S4094x1
          (multiReduction .add [1] S4094
            (mulf
              (subf (extractStridedSlice S4094x1 ![2, 0] v27 slices_S4096x1_o2_0_S4094x1)
                (extractStridedSlice S4094x1 ![0, 0] v27 slices_S4096x1_o0_0_S4094x1))
              (subf (extractStridedSlice S4094x1 ![2, 0] v27 slices_S4096x1_o2_0_S4094x1)
                (extractStridedSlice S4094x1 ![0, 0] v27 slices_S4096x1_o0_0_S4094x1)))
            0x00000000#32 reduces_S4094x1_S4094 (.inl rfl) rfl)
          shapeCasts_S4094_S4094x1 (ix2 s (0 : Fin 1))) + Ideal.ofBits .f32 0x358637BD#32) = _
  refine congrArg (fun t => Ideal.log (Ideal.sqrt t + Ideal.ofBits .f32 0x358637BD#32)) ?_
  refine (Keepdims.shapeCast_a_a1_apply _ shapeCasts_S4094_S4094x1 s (0 : Fin 1)).trans ?_
  refine (AxisFold.sum_second_apply (a := 4094) (b := 1) _ reduces_S4094x1_S4094 (.inl rfl) rfl s).trans ?_
  refine (Fin.sum_univ_one _).trans ?_
  show (extractStridedSlice S4094x1 ![2, 0] v27 slices_S4096x1_o2_0_S4094x1 (ix2 s (0 : Fin 1))
        - extractStridedSlice S4094x1 ![0, 0] v27 slices_S4096x1_o0_0_S4094x1 (ix2 s (0 : Fin 1)))
      * (extractStridedSlice S4094x1 ![2, 0] v27 slices_S4096x1_o2_0_S4094x1 (ix2 s (0 : Fin 1))
        - extractStridedSlice S4094x1 ![0, 0] v27 slices_S4096x1_o0_0_S4094x1 (ix2 s (0 : Fin 1))) = _
  rw [shifted_apply, unshifted_apply]

/-! ## The payload at a position -/

/-- The body's column of logarithms, at position s, is the specification's logarithm of the lag-two difference of the row
    the block holds, with the weights and biases read off the other loaded blocks. -/
theorem pay2_apply (v0 : Vec Ideal S1x4096x128 .f32) (v3 : Vec Ideal S2x128 .f32) (v6 : Vec Ideal S1x2 .f32) (v12 : Vec Ideal S1x2 .f32)
    (v24 : Vec Ideal S1x1 .f32) (s : Fin 4094) :
    k0_pay2 v0 v3 v6 v12 v24 (ix2 s (0 : Fin 1))
      = logDiff (fun s d => v0 (ix3 (0 : Fin 1) s d)) (fun e d => v3 (ix2 e d)) (fun e => v6 (ix2 (0 : Fin 1) e))
          (fun e => v12 (ix2 (0 : Fin 1) e)) (v24 (ix2 (0 : Fin 1) (0 : Fin 1))) s := by
  rw [pay2_eq, logColumn_apply, projColumn_apply, projColumn_apply, hiddenBlock_apply, hiddenBlock_apply, hiddenBlock_apply,
    hiddenBlock_apply]
  rfl

end Cert.KernelIdeal.Row

end
-- ==== Proof.KernelBlock.lean ====
/-
  What one grid point leaves in the output block.

  The body sums its column of logarithms over the 4094 positions, divides by 4094 for the mean, broadcasts the mean back
  down the column, sums the squared deviations, divides by 4093 and takes the square root for the spread; the output block's
  entry (·, r, j) is tanh(mean · row₀(j) + spread · row₁(j) + bias(j)), whatever the row r. With the column read position by
  position this is the specification's feature of the row the point's input block holds.
-/
import proofs.«102095_j71683004170598_1_alg».proof.Proof.KernelIdealValue
import proofs.«102095_j71683004170598_1_alg».proof.Proof.KernelRow

noncomputable section

open scoped BigOperators

namespace Cert.KernelIdeal.Block

open Cert.KernelIdeal Cert.KernelIdeal.Gen Cert.KernelIdeal.ValueP Cert.KernelIdeal.Row Idealize.ShloMosaic Idealize.ShloMosaic.ValueIdx
  Cert.DelayStats

variable (P0 : Vec Ideal S1x4096x128 .f32) (P1 : Vec Ideal S2x128 .f32) (P2 : Vec Ideal S1x2 .f32) (P3 : Vec Ideal S1x2 .f32)
  (P4 : Vec Ideal S1x1 .f32)

/-- The sum of the column of logarithms, as the one-entry vector the body makes. -/
def total : FVec Ideal S1 .f32 :=
  multiReduction .add [0] S1 (k0_pay2 P0 P1 P2 P3 P4) 0x00000000#32 reduces_S4094x1_S1 (.inl rfl) rfl

/-- The mean broadcast back down the column. -/
def meanColumn : FVec Ideal S4094x1 .f32 :=
  broadcastTo S4094x1 (divf (shapeCast S1x1 (total P0 P1 P2 P3 P4) shapeCasts_S1_S1x1) (broadcast S1x1 (Scalar.ofBits .f32 0x457FE000#32)))
    broadcasts_S1x1_S4094x1

/-- The sum of the squared deviations, as a one-entry vector. -/
def sqTotal : FVec Ideal S1 .f32 :=
  multiReduction .add [0] S1
    (mulf (subf (k0_pay2 P0 P1 P2 P3 P4) (meanColumn P0 P1 P2 P3 P4)) (subf (k0_pay2 P0 P1 P2 P3 P4) (meanColumn P0 P1 P2 P3 P4)))
    0x00000000#32 reduces_S4094x1_S1 (.inl rfl) rfl

/-- The block the point leaves, over those three. -/
theorem E7_eq (P5 P6 P7 : Vec Ideal S1x64 .f32) (y : S1x64x64.Idx) :
    E7 P0 P1 P2 P3 P4 P5 P6 P7 y
      = FloatOps.tanh (FloatOps.addf (FloatOps.addf
          (FloatOps.mulf (FloatOps.divf (total P0 P1 P2 P3 P4 (ix7_0 y)) (Scalar.ofBits .f32 0x457FE000#32)) (P5 (ix7_1 y)))
          (FloatOps.mulf (FloatOps.sqrt (FloatOps.divf (sqTotal P0 P1 P2 P3 P4 (ix7_2 y)) (Scalar.ofBits .f32 0x457FD000#32))) (P6 (ix7_3 y))))
          (P7 (ix7_4 y))) := rfl

theorem total_apply :
    total P0 P1 P2 P3 P4 (ix1 (0 : Fin 1)) = ∑ s : Fin 4094, k0_pay2 P0 P1 P2 P3 P4 (ix2 s (0 : Fin 1)) :=
  AxisFold.sum_first_apply (a := 4094) (b := 1) _ reduces_S4094x1_S1 (.inl rfl) rfl (0 : Fin 1)

theorem meanColumn_apply (s : Fin 4094) :
    meanColumn P0 P1 P2 P3 P4 (ix2 s (0 : Fin 1)) = mean (fun s => k0_pay2 P0 P1 P2 P3 P4 (ix2 s (0 : Fin 1))) := by
  unfold meanColumn
  refine (broadcastTo_apply _ broadcasts_S1x1_S4094x1 (ix2 s (0 : Fin 1)) (ix2 (0 : Fin 1) (0 : Fin 1)) (fun a => match a with
    | ⟨0, _⟩ => rfl
    | ⟨1, _⟩ => rfl)).trans ?_
  show Ideal.div (shapeCast S1x1 (total P0 P1 P2 P3 P4) shapeCasts_S1_S1x1 (ix2 (0 : Fin 1) (0 : Fin 1))) (Ideal.ofBits .f32 0x457FE000#32) = _
  rw [Keepdims.shapeCast_a_a1_apply, total_apply]
  rfl

theorem sqTotal_apply :
    sqTotal P0 P1 P2 P3 P4 (ix1 (0 : Fin 1))
      = ∑ s : Fin 4094, (k0_pay2 P0 P1 P2 P3 P4 (ix2 s (0 : Fin 1)) - mean (fun s => k0_pay2 P0 P1 P2 P3 P4 (ix2 s (0 : Fin 1))))
          * (k0_pay2 P0 P1 P2 P3 P4 (ix2 s (0 : Fin 1)) - mean (fun s => k0_pay2 P0 P1 P2 P3 P4 (ix2 s (0 : Fin 1)))) := by
  refine (AxisFold.sum_first_apply (a := 4094) (b := 1) _ reduces_S4094x1_S1 (.inl rfl) rfl (0 : Fin 1)).trans ?_
  refine Finset.sum_congr rfl fun s _ => ?_
  show (k0_pay2 P0 P1 P2 P3 P4 (ix2 s (0 : Fin 1)) - meanColumn P0 P1 P2 P3 P4 (ix2 s (0 : Fin 1)))
      * (k0_pay2 P0 P1 P2 P3 P4 (ix2 s (0 : Fin 1)) - meanColumn P0 P1 P2 P3 P4 (ix2 s (0 : Fin 1))) = _
  rw [meanColumn_apply]

/-- The block at (u, r, j) is the feature of the column of logarithms, at column j. -/
theorem block_apply (P5 P6 P7 : Vec Ideal S1x64 .f32) (u : Fin 1) (r j : Fin 64) :
    E7 P0 P1 P2 P3 P4 P5 P6 P7 (ix3 u r j)
      = feature (fun s => k0_pay2 P0 P1 P2 P3 P4 (ix2 s (0 : Fin 1))) (fun j => P5 (ix2 (0 : Fin 1) j)) (fun j => P6 (ix2 (0 : Fin 1) j))
          (fun j => P7 (ix2 (0 : Fin 1) j)) j := by
  have i0 : ix7_0 (ix3 u r j) = ix1 (0 : Fin 1) := funext fun a => by
    match a with
    | ⟨0, _⟩ => rfl
  have i2 : ix7_2 (ix3 u r j) = ix1 (0 : Fin 1) := funext fun a => by
    match a with
    | ⟨0, _⟩ => rfl
  have i1 : ix7_1 (ix3 u r j) = ix2 (0 : Fin 1) j := funext fun a => by
    match a with
    | ⟨0, _⟩ => rfl
    | ⟨1, _⟩ => rfl
  have i3 : ix7_3 (ix3 u r j) = ix2 (0 : Fin 1) j := funext fun a => by
    match a with
    | ⟨0, _⟩ => rfl
    | ⟨1, _⟩ => rfl
  have i4 : ix7_4 (ix3 u r j) = ix2 (0 : Fin 1) j := funext fun a => by
    match a with
    | ⟨0, _⟩ => rfl
    | ⟨1, _⟩ => rfl
  rw [E7_eq, i0, i1, i2, i3, i4, total_apply, sqTotal_apply]
  rfl

/-- The same with the column read position by position: the specification's feature of the row the input block holds. -/
theorem block_eq_feature (P5 P6 P7 : Vec Ideal S1x64 .f32) (u : Fin 1) (r j : Fin 64) :
    E7 P0 P1 P2 P3 P4 P5 P6 P7 (ix3 u r j)
      = feature (logDiff (fun s d => P0 (ix3 (0 : Fin 1) s d)) (fun e d => P1 (ix2 e d)) (fun e => P2 (ix2 (0 : Fin 1) e))
            (fun e => P3 (ix2 (0 : Fin 1) e)) (P4 (ix2 (0 : Fin 1) (0 : Fin 1))))
          (fun j => P5 (ix2 (0 : Fin 1) j)) (fun j => P6 (ix2 (0 : Fin 1) j)) (fun j => P7 (ix2 (0 : Fin 1) j)) j := by
  rw [block_apply]
  have hl : (fun s : Fin 4094 => k0_pay2 P0 P1 P2 P3 P4 (ix2 s (0 : Fin 1)))
      = logDiff (fun s d => P0 (ix3 (0 : Fin 1) s d)) (fun e d => P1 (ix2 e d)) (fun e => P2 (ix2 (0 : Fin 1) e))
          (fun e => P3 (ix2 (0 : Fin 1) e)) (P4 (ix2 (0 : Fin 1) (0 : Fin 1))) :=
    funext fun s => pay2_apply P0 P1 P2 P3 P4 s
  rw [hl]

end Cert.KernelIdeal.Block

end
-- ==== Proof.KernelArray.lean ====
/-
  From blocks to the whole result array.

  Grid point t stages batch row t of the input (its block index on the first axis is t, zero on the others) and the whole of
  each small operand: the first weights, the first bias recast as a 1 × 2 row, the second weights, the second bias recast as
  1 × 1, the third weights transposed to 2 × 64, the third bias recast as a 1 × 64 row. So what the point writes back is the
  specification's result on block t of the output, rows (t, ·, ·); the 128 blocks cover the output array (index (b, r, j) is
  in block b), and the array after the run is the specification's result of the seven arguments.
-/
import proofs.«102095_j71683004170598_1_alg».proof.Proof.KernelBlock
import Idealize.ShloMosaic.Lib.StableHlo.Run

set_option maxRecDepth 16384

noncomputable section

namespace Cert.KernelIdeal.Array

open Cert.KernelIdeal Cert.KernelIdeal.Gen Cert.KernelIdeal.ValueP Cert.KernelIdeal.Block Idealize.ShloMosaic Idealize.ShloMosaic.TcCoe
  Idealize.SL.Sem Idealize.ShloMosaic.ValueIdx Cert.DelayStats
open Idealize.ShloMosaic.Pipeline (Dat)

variable (m : (ℓ : Loc nD τ sig) → Buf (Elt Ideal) ℓ) (ρ : Dev nD → PrngReg)

/-! ## The index maps, decided over the 128 points -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The batch row a grid point works on. -/
def rowOf (t : Fin cfg0.N) : Fin 128 := ⟨t.val, by have h := t.isLt; have e : cfg0.N = 128 := N_0; omega⟩

/-! ## The small operands as the region finds them -/

theorem V_bias1 (c : Dev nD) :
    (V m c main_v0 : S1x2.Idx → EReal) = shapeCast S1x2 (m ((c : Thread nD τ).loc main_arg2)) shapeCasts_S2_S1x2 := by
  dsimp only [Gen.V, Gen.hostOps0]; after_results <;> rfl

theorem V_bias2 (c : Dev nD) :
    (V m c main_v1 : S1x1.Idx → EReal) = shapeCast S1x1 (m ((c : Thread nD τ).loc main_arg4)) shapeCasts_S1_S1x1 := by
  dsimp only [Gen.V, Gen.hostOps0]; after_results <;> rfl

theorem V_bias3 (c : Dev nD) :
    (V m c main_v2 : S1x64.Idx → EReal) = shapeCast S1x64 (m ((c : Thread nD τ).loc main_arg6)) shapeCasts_S64_S1x64 := by
  dsimp only [Gen.V, Gen.hostOps0]; after_results <;> rfl

theorem V_weights3 (c : Dev nD) :
    (V m c main_v3 : S2x64.Idx → EReal) = transpose S2x64 [1, 0] (m ((c : Thread nD τ).loc main_arg5)) transposes_S64x2_S2x64_1_0 := by
  dsimp only [Gen.V, Gen.hostOps0]; after_results <;> rfl

/-! ## Each loaded block, read where the body reads it -/

theorem read_x (c : Dev nD) (t : Fin cfg0.N) (s : Fin 4096) (d : Fin 128) :
    View.ld (iblk m c 0 t) r0_0 (ix3 (0 : Fin 1) s d) = m ((c : Thread nD τ).loc main_arg0) (ix3 (rowOf t) s d) := by
  obtain ⟨e0, e1, e2, -⟩ := idx_facts t
  show V m c main_arg0 (((cfg0.win 0).blk t).view.emb (r0_0.idx (ix3 (0 : Fin 1) s d))) = _
  refine (congrArg (V m c main_arg0) (?_ : _ = ix3 (rowOf t) s d)).trans (congrFun (V_main_arg0 m c) _)
  funext a; apply Fin.ext
  match a with
  | ⟨0, _⟩ => show win0_0.index t (0 : Fin 3) * 1 + 1 * (0 + 1 * 0) = t.val; omega
  | ⟨1, _⟩ => show win0_0.index t (1 : Fin 3) * 4096 + 1 * (0 + 1 * s.val) = s.val; omega
  | ⟨2, _⟩ => show win0_0.index t (2 : Fin 3) * 128 + 1 * (0 + 1 * d.val) = d.val; omega

theorem read_w1 (c : Dev nD) (t : Fin cfg0.N) (e : Fin 2) (d : Fin 128) :
    View.ld (iblk m c 1 t) r0_1 (ix2 e d) = m ((c : Thread nD τ).loc main_arg1) (ix2 e d) := by
  obtain ⟨-, -, -, e0, e1, -⟩ := idx_facts t
  show V m c main_arg1 (((cfg0.win 1).blk t).view.emb (r0_1.idx (ix2 e d))) = _
  refine (congrArg (V m c main_arg1) (?_ : _ = ix2 e d)).trans (congrFun (V_main_arg1 m c) _)
  funext a; apply Fin.ext
  match a with
  | ⟨0, _⟩ => show win0_1.index t (0 : Fin 2) * 2 + 1 * (0 + 1 * e.val) = e.val; omega
  | ⟨1, _⟩ => show win0_1.index t (1 : Fin 2) * 128 + 1 * (0 + 1 * d.val) = d.val; omega

theorem read_b1 (c : Dev nD) (t : Fin cfg0.N) (e : Fin 2) :
    View.ld (iblk m c 2 t) r0_2 (ix2 (0 : Fin 1) e) = m ((c : Thread nD τ).loc main_arg2) (ix1 e) := by
  obtain ⟨-, -, -, -, -, e0, e1, -⟩ := idx_facts t
  show V m c main_v0 (((cfg0.win 2).blk t).view.emb (r0_2.idx (ix2 (0 : Fin 1) e))) = _
  refine (congrArg (V m c main_v0) (?_ : _ = ix2 (0 : Fin 1) e)).trans ((congrFun (V_bias1 m c) _).trans ?_)
  · funext a; apply Fin.ext
    match a with
    | ⟨0, _⟩ => show win0_2.index t (0 : Fin 2) * 1 + 1 * (0 + 1 * 0) = 0; omega
    | ⟨1, _⟩ => show win0_2.index t (1 : Fin 2) * 2 + 1 * (0 + 1 * e.val) = e.val; omega
  · exact shapeCast_apply _ _ _ (ix1 e) (by
      rw [Shape.rowMajor_val_one, Shape.rowMajor_val_two]
      show e.val = 0 * 2 + e.val
      omega)

theorem read_w2 (c : Dev nD) (t : Fin cfg0.N) (e : Fin 2) :
    View.ld (iblk m c 3 t) r0_2 (ix2 (0 : Fin 1) e) = m ((c : Thread nD τ).loc main_arg3) (ix2 (0 : Fin 1) e) := by
  obtain ⟨-, -, -, -, -, -, -, e0, e1, -⟩ := idx_facts t
  show V m c main_arg3 (((cfg0.win 3).blk t).view.emb (r0_2.idx (ix2 (0 : Fin 1) e))) = _
  refine (congrArg (V m c main_arg3) (?_ : _ = ix2 (0 : Fin 1) e)).trans (congrFun (V_main_arg3 m c) _)
  funext a; apply Fin.ext
  match a with
  | ⟨0, _⟩ => show win0_3.index t (0 : Fin 2) * 1 + 1 * (0 + 1 * 0) = 0; omega
  | ⟨1, _⟩ => show win0_3.index t (1 : Fin 2) * 2 + 1 * (0 + 1 * e.val) = e.val; omega

theorem read_b2 (c : Dev nD) (t : Fin cfg0.N) :
    View.ld (iblk m c 4 t) r0_3 (ix2 (0 : Fin 1) (0 : Fin 1)) = m ((c : Thread nD τ).loc main_arg4) (ix1 (0 : Fin 1)) := by
  obtain ⟨-, -, -, -, -, -, -, -, -, e0, e1, -⟩ := idx_facts t
  show V m c main_v1 (((cfg0.win 4).blk t).view.emb (r0_3.idx (ix2 (0 : Fin 1) (0 : Fin 1)))) = _
  refine (congrArg (V m c main_v1) (?_ : _ = ix2 (0 : Fin 1) (0 : Fin 1))).trans ((congrFun (V_bias2 m c) _).trans ?_)
  · funext a; apply Fin.ext
    match a with
    | ⟨0, _⟩ => show win0_4.index t (0 : Fin 2) * 1 + 1 * (0 + 1 * 0) = 0; omega
    | ⟨1, _⟩ => show win0_4.index t (1 : Fin 2) * 1 + 1 * (0 + 1 * 0) = 0; omega
  · exact shapeCast_apply _ _ _ (ix1 (0 : Fin 1)) (by
      rw [Shape.rowMajor_val_one, Shape.rowMajor_val_two]
      show 0 = 0 * 1 + 0
      omega)

theorem read_w3 (c : Dev nD) (t : Fin cfg0.N) (k : Fin 2) (off : Fin 2 → ℕ) (hoff : off = ![k.val, 0])
    (inb : ∀ a, off a + S1x64.size a ≤ S2x64.size a) (j : Fin 64) :
    View.ld (iblk m c 5 t) (Rect.unit (s := S2x64) off S1x64.size inb) (ix2 (0 : Fin 1) j) = m ((c : Thread nD τ).loc main_arg5) (ix2 j k) := by
  subst hoff
  obtain ⟨-, -, -, -, -, -, -, -, -, -, -, e0, e1, -⟩ := idx_facts t
  show V m c main_v3 (((cfg0.win 5).blk t).view.emb ((Rect.unit (s := S2x64) ![k.val, 0] S1x64.size inb).idx (ix2 (0 : Fin 1) j))) = _
  refine (congrArg (V m c main_v3) (?_ : _ = ix2 k j)).trans ((congrFun (V_weights3 m c) _).trans ?_)
  · funext a; apply Fin.ext
    match a with
    | ⟨0, _⟩ => show win0_5.index t (0 : Fin 2) * 2 + 1 * (k.val + 1 * 0) = k.val; omega
    | ⟨1, _⟩ => show win0_5.index t (1 : Fin 2) * 64 + 1 * (0 + 1 * j.val) = j.val; omega
  · exact transpose_apply _ _ _ _ (ix2 j k) (fun a => match a with
      | ⟨0, _⟩ => rfl
      | ⟨1, _⟩ => rfl)

theorem read_b3 (c : Dev nD) (t : Fin cfg0.N) (j : Fin 64) :
    View.ld (iblk m c 6 t) r0_6 (ix2 (0 : Fin 1) j) = m ((c : Thread nD τ).loc main_arg6) (ix1 j) := by
  obtain ⟨-, -, -, -, -, -, -, -, -, -, -, -, -, e0, e1, -⟩ := idx_facts t
  show V m c main_v2 (((cfg0.win 6).blk t).view.emb (r0_6.idx (ix2 (0 : Fin 1) j))) = _
  refine (congrArg (V m c main_v2) (?_ : _ = ix2 (0 : Fin 1) j)).trans ((congrFun (V_bias3 m c) _).trans ?_)
  · funext a; apply Fin.ext
    match a with
    | ⟨0, _⟩ => show win0_6.index t (0 : Fin 2) * 1 + 1 * (0 + 1 * 0) = 0; omega
    | ⟨1, _⟩ => show win0_6.index t (1 : Fin 2) * 64 + 1 * (0 + 1 * j.val) = j.val; omega
  · exact shapeCast_apply _ _ _ (ix1 j) (by
      rw [Shape.rowMajor_val_one, Shape.rowMajor_val_two]
      show j.val = 0 * 64 + j.val
      omega)

/-! ## What a point writes back -/

/-- The block point t leaves, at a block index, is the specification's result at the array index under it. -/
theorem point_eq (c : Dev nD) (t : Fin cfg0.N) (y : S1x64x64.Idx) :
    out0_7 (iblk m c 0 t) (iblk m c 1 t) (iblk m c 2 t) (iblk m c 3 t) (iblk m c 4 t) (iblk m c 5 t) (iblk m c 6 t) y
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  obtain ⟨u, r, j, rfl⟩ : ∃ (u : Fin 1) (r : Fin 64) (j : Fin 64), y = ix3 u r j := ⟨y 0, y 1, y 2, eq_ix3 y⟩
  have e7 := (idx_facts t).2.2.2.2.2.2.2.2.2.2.2.2.2.2.2
  obtain ⟨e70, e71, e72⟩ := e7
  unfold out0_7
  refine (canon7_eq (F := Ideal) (View.ld (iblk m c 0 t) r0_0) (View.ld (iblk m c 1 t) r0_1) (View.ld (iblk m c 2 t) r0_2)
    (View.ld (iblk m c 3 t) r0_2) (View.ld (iblk m c 4 t) r0_3) (View.ld (iblk m c 5 t) r0_4) (View.ld (iblk m c 5 t) r0_5)
    (View.ld (iblk m c 6 t) r0_6) (ix3 u r j)).trans ?_
  refine (block_eq_feature _ _ _ _ _ _ _ _ u r j).trans ?_
  have hrow : (((cfg0.win 7).blk t).view.emb (ix3 u r j)) 0 = rowOf t := Fin.ext (by
    show win0_7.index t (0 : Fin 3) * 1 + 1 * u.val = t.val
    have := u.isLt
    omega)
  have hcol : j = (((cfg0.win 7).blk t).view.emb (ix3 u r j)) 2 := Fin.ext (by
    show j.val = win0_7.index t (2 : Fin 3) * 64 + 1 * j.val
    omega)
  refine result_apply_of _ _ _ _ _ _ _ (((cfg0.win 7).blk t).view.emb (ix3 u r j)) _ _ _ _ _ _ _ _ j
    (fun s d => ?_) (fun e d => ?_) (fun e => ?_) (fun e => ?_) ?_ (fun j => ?_) (fun j => ?_) (fun j => ?_) hcol
  · rw [hrow]; exact read_x m c t s d
  · exact read_w1 m c t e d
  · exact read_b1 m c t e
  · exact read_w2 m c t e
  · exact read_b2 m c t
  · exact read_w3 m c t (0 : Fin 2) _ rfl _ j
  · exact read_w3 m c t (1 : Fin 2) _ rfl _ j
  · exact read_b3 m c t j

/-- What point t writes back is block t of the specification's result. -/
theorem flushed_eq (c : Dev nD) (t : Fin cfg0.N) :
    (dats m 0 c).flushed 7 t = ((cfg0.win 7).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [flushed7]
  funext y
  exact point_eq m c t y

/-! ## The blocks cover the output -/

theorem mem_blk (t : Fin cfg0.N) (i : S128x64x64.Idx) :
    i ∈ ((cfg0.win 7).blk t).view.set
      ↔ ∀ a : Fin 3, win0_7.index t a * S1x64x64.size a ≤ (i a).val ∧ (i a).val < win0_7.index t a * S1x64x64.size a + S1x64x64.size a := by
  show i ∈ ((View.whole main_v4).slice (win0_7.rect t)).set ↔ _
  rw [View.set_slice_whole, Rect.mem_set_unit]
  exact Iff.rfl

theorem cover (i : S128x64x64.Idx) : ∃ t : Fin cfg0.N, (cfg0.win 7).flush t = true ∧ i ∈ ((cfg0.win 7).blk t).view.set := by
  have hi0 : (i 0).val < 128 := (i 0).isLt
  have hi1 : (i 1).val < 64 := (i 1).isLt
  have hi2 : (i 2).val < 64 := (i 2).isLt
  have hN : grid0.N = 128 := N_0
  refine ⟨⟨(i 0).val, by show (i 0).val < grid0.N; omega⟩, flush0_7 _, ?_⟩
  rw [mem_blk]
  have e7 := (idx_facts ⟨(i 0).val, by show (i 0).val < grid0.N; omega⟩).2.2.2.2.2.2.2.2.2.2.2.2.2.2.2
  obtain ⟨e70, e71, e72⟩ := e7
  have e70' : win0_7.index ⟨(i 0).val, by show (i 0).val < grid0.N; omega⟩ (0 : Fin 3) = (i 0).val := e70
  intro a
  match a with
  | ⟨0, _⟩ =>
    show win0_7.index ⟨(i 0).val, _⟩ (0 : Fin 3) * 1 ≤ (i 0).val ∧ (i 0).val < win0_7.index ⟨(i 0).val, _⟩ (0 : Fin 3) * 1 + 1
    omega
  | ⟨1, _⟩ =>
    show win0_7.index ⟨(i 0).val, _⟩ (1 : Fin 3) * 64 ≤ (i 1).val ∧ (i 1).val < win0_7.index ⟨(i 0).val, _⟩ (1 : Fin 3) * 64 + 64
    omega
  | ⟨2, _⟩ =>
    show win0_7.index ⟨(i 0).val, _⟩ (2 : Fin 3) * 64 ≤ (i 2).val ∧ (i 2).val < win0_7.index ⟨(i 0).val, _⟩ (2 : Fin 3) * 64 + 64
    omega

/-! ## The array after the run, and the run -/

theorem final (c : Dev nD) : (dats m 0 c).arrAt 7 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_eq m c t) cover

/-- Every weakly fair execution of the idealized kernel terminates with the result array at the specification's result of
    the arguments, and the arguments unchanged. -/
theorem run : θ_run defs (onTc (τ := τ) (main (F := Ideal))) ⟨m, fun _ => 0, ρ⟩ fun r => ∀ c : Dev nD,
      r.2.mem ((c : Thread nD τ).loc main_v4) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Array

end
-- ==== Proof.RefRun.lean ====
/-
  The reference program's run, read back.

  The reference is a straight line of sixty-two tensor operations once the five small functions it calls (the maximum with
  zero, the norm over a unit axis, the unbiased variance with its guarded select, the standard deviation, the select itself)
  are written out at their call sites. Every weakly fair execution terminates with each buffer at the fold of those
  operations over the launch contents; the result buffer's fold is the composition below, stage by stage: the hidden layer,
  the projection, the logarithms of the lag-two differences, their mean and spread per batch row, and the output features
  broadcast over the 64 output rows.
-/
import proofs.«102095_j71683004170598_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, the calls written out. -/
abbrev ops : List (HloOp τ sig (Elt F)) :=
  [ binary main_arg0 main_arg1 main_v0 ((fun l r => Host.dotGeneral dot_S128x4096x128_S2x128_S128x4096x2_2_1_01_0_n_n none l r) : (⟨S128x4096x128, .f32⟩ : BufTy).Contents (Elt F) → (⟨S2x128, .f32⟩ : BufTy).Contents (Elt F) → (⟨S128x4096x2, .f32⟩ : BufTy).Contents (Elt F)),
    unary main_arg2 main_v1 (broadcastInDim S1x1x2 ![2] bcast_S2_S1x1x2_2 : (⟨S2, .f32⟩ : BufTy).Contents (Elt F) → (⟨S1x1x2, .f32⟩ : BufTy).Contents (Elt F)),
    unary main_v1 main_v2 (broadcastInDim S128x4096x2 ![0, 1, 2] bcast_S1x1x2_S128x4096x2_0_1_2 : (⟨S1x1x2, .f32⟩ : BufTy).Contents (Elt F) → (⟨S128x4096x2, .f32⟩ : BufTy).Contents (Elt F)),
    binary main_v0 main_v2 main_v3 (addf : (⟨S128x4096x2, .f32⟩ : BufTy).Contents (Elt F) → (⟨S128x4096x2, .f32⟩ : BufTy).Contents (Elt F) → (⟨S128x4096x2, .f32⟩ : BufTy).Contents (Elt F)),
    TRef.nullary main_call0.cst (constant S_ .f32 0x00000000#32),
    TRef.unary main_call0.cst main_call0.v0 (broadcastInDim S128x4096x2 ![] bcast_S_S128x4096x2),
    TRef.binary (.of main_v3) main_call0.v0 main_call0.v1 maximumf,
    binary main_v4 main_arg3 main_v5 ((fun l r => Host.dotGeneral dot_S128x4096x2_S1x2_S128x4096x1_2_1_01_0_n_n none l r) : (⟨S128x4096x2, .f32⟩ : BufTy).Contents (Elt F) → (⟨S1x2, .f32⟩ : BufTy).Contents (Elt F) → (⟨S128x4096x1, .f32⟩ : BufTy).Contents (Elt F)),
    unary main_arg4 main_v6 (broadcastInDim S1x1x1 ![2] bcast_S1_S1x1x1_2 : (⟨S1, .f32⟩ : BufTy).Contents (Elt F) → (⟨S1x1x1, .f32⟩ : BufTy).Contents (Elt F)),
    unary main_v6 main_v7 (broadcastInDim S128x4096x1 ![0, 1, 2] bcast_S1x1x1_S128x4096x1_0_1_2 : (⟨S1x1x1, .f32⟩ : BufTy).Contents (Elt F) → (⟨S128x4096x1, .f32⟩ : BufTy).Contents (Elt F)),
    binary main_v5 main_v7 main_v8 (addf : (⟨S128x4096x1, .f32⟩ : BufTy).Contents (Elt F) → (⟨S128x4096x1, .f32⟩ : BufTy).Contents (Elt F) → (⟨S128x4096x1, .f32⟩ : BufTy).Contents (Elt F)),
    unary main_v8 main_v9 ((extractStridedSlice S128x4094x1 ![0, 2, 0] · slices_S128x4096x1_S128x4094x1_0_2_0) : (⟨S128x4096x1, .f32⟩ : BufTy).Contents (Elt F) → (⟨S128x4094x1, .f32⟩ : BufTy).Contents (Elt F)),
    unary main_v8 main_v10 ((extractStridedSlice S128x4094x1 ![0, 0, 0] · slices_S128x4096x1_S128x4094x1_0_0_0) : (⟨S128x4096x1, .f32⟩ : BufTy).Contents (Elt F) → (⟨S128x4094x1, .f32⟩ : BufTy).Contents (Elt F)),
    binary main_v9 main_v10 main_v11 (subf : (⟨S128x4094x1, .f32⟩ : BufTy).Contents (Elt F) → (⟨S128x4094x1, .f32⟩ : BufTy).Contents (Elt F) → (⟨S128x4094x1, .f32⟩ : BufTy).Contents (Elt F)),
    TRef.binary (.of main_v11) (.of main_v11) main_call1.v0 mulf,
    TRef.nullary main_call1.cst (constant S_ .f32 0x00000000#32),
    TRef.binary main_call1.v0 main_call1.cst main_call1.v1 (fun x v => Host.reduceAdd x v reducesTo_S128x4094x1_S128x4094_d2 h_S_),
    TRef.unary main_call1.v1 main_call1.v2 Host.sqrt,
    nullary main_cst (constant S_ .f32 0x358637BD#32),
    unary main_cst main_v13 (broadcastInDim S128x4094 ![] bcast_S_S128x4094 : (⟨S_, .f32⟩ : BufTy).Contents (Elt F) → (⟨S128x4094, .f32⟩ : BufTy).Contents (Elt F)),
    binary main_v12 main_v13 main_v14 (addf : (⟨S128x4094, .f32⟩ : BufTy).Contents (Elt F) → (⟨S128x4094, .f32⟩ : BufTy).Contents (Elt F) → (⟨S128x4094, .f32⟩ : BufTy).Contents (Elt F)),
    unary main_v14 main_v15 (Host.log : (⟨S128x4094, .f32⟩ : BufTy).Contents (Elt F) → (⟨S128x4094, .f32⟩ : BufTy).Contents (Elt F)),
    nullary main_cst_0 (constant S_ .f32 0x00000000#32),
    binary main_v15 main_cst_0 main_v16 ((fun x v => Host.reduceAdd x v reducesTo_S128x4094_S128_d1 h_S_) : (⟨S128x4094, .f32⟩ : BufTy).Contents (Elt F) → (⟨S_, .f32⟩ : BufTy).Contents (Elt F) → (⟨S128, .f32⟩ : BufTy).Contents (Elt F)),
    nullary main_cst_1 (constant S_ .f32 0x457FE000#32),
    unary main_cst_1 main_v17 (broadcastInDim S128 ![] bcast_S_S128 : (⟨S_, .f32⟩ : BufTy).Contents (Elt F) → (⟨S128, .f32⟩ : BufTy).Contents (Elt F)),
    binary main_v16 main_v17 main_v18 (Host.divf : (⟨S128, .f32⟩ : BufTy).Contents (Elt F) → (⟨S128, .f32⟩ : BufTy).Contents (Elt F) → (⟨S128, .f32⟩ : BufTy).Contents (Elt F)),
    nullary main_c (constantI S_ 32 1#32),
    TRef.nullary main_call2.call0.cst (constant S_ .f32 0x00000000#32),
    TRef.binary (.of main_v15) main_call2.call0.cst main_call2.call0.v0 (fun x v => Host.reduceAdd x v reducesTo_S128x4094_S128_d1 h_S_),
    TRef.unary main_call2.call0.v0 main_call2.call0.v1 (broadcastInDim S128x1 ![0] bcast_S128_S128x1_0),
    TRef.nullary main_call2.call0.cst_0 (constant S_ .f32 0x457FE000#32),
    TRef.unary main_call2.call0.cst_0 main_call2.call0.v2 (broadcastInDim S128x1 ![] bcast_S_S128x1),
    TRef.binary main_call2.call0.v1 main_call2.call0.v2 main_call2.call0.v3 Host.divf,
    TRef.unary main_call2.call0.v3 main_call2.call0.v4 (broadcastInDim S128x4094 ![0, 1] bcast_S128x1_S128x4094_0_1),
    TRef.binary (.of main_v15) main_call2.call0.v4 main_call2.call0.v5 subf,
    TRef.binary main_call2.call0.v5 main_call2.call0.v5 main_call2.call0.v6 mulf,
    TRef.unary (.of main_c) main_call2.call0.v7 (sitofp .f32),
    TRef.nullary main_call2.call0.cst_1 (constant S_ .f32 0x457FE000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S128x4094_S128_d1 h_S_),
    TRef.unary main_call2.call0.v8 main_call2.call0.v10 (broadcastInDim S128 ![] bcast_S_S128),
    TRef.binary main_call2.call0.v9 main_call2.call0.v10 main_call2.call0.v11 Host.divf,
    TRef.nullary main_call2.call0.cst_3 (constant S_ .f32 0x00000000#32),
    TRef.binary main_call2.call0.v8 main_call2.call0.cst_3 main_call2.call0.v12 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S128 ![] bcast_S_S128),
    TRef.ternary main_call2.call0.v12 main_call2.call0.v11 main_call2.call0.call0.v1 main_call2.call0.call0.v2 (fun p a b => select (broadcastInDim S128 ![] bcast_S_S128 p) a b),
    TRef.unary main_call2.call0.call0.v2 main_call2.v1 Host.sqrt,
    unary main_v18 main_v20 (broadcastInDim S128x1 ![0] bcast_S128_S128x1_0 : (⟨S128, .f32⟩ : BufTy).Contents (Elt F) → (⟨S128x1, .f32⟩ : BufTy).Contents (Elt F)),
    unary main_v19 main_v21 (broadcastInDim S128x1 ![0] bcast_S128_S128x1_0 : (⟨S128, .f32⟩ : BufTy).Contents (Elt F) → (⟨S128x1, .f32⟩ : BufTy).Contents (Elt F)),
    binary main_v20 main_v21 main_v22 ((fun a b => concatenate S128x2 1 [⟨S128x1, a⟩, ⟨S128x1, b⟩] concatenates_S128x1_S128x1_S128x2_d1) : (⟨S128x1, .f32⟩ : BufTy).Contents (Elt F) → (⟨S128x1, .f32⟩ : BufTy).Contents (Elt F) → (⟨S128x2, .f32⟩ : BufTy).Contents (Elt F)),
    unary main_arg5 main_v23 ((transpose S2x64 [1, 0] · transposes_S64x2_S2x64_1_0) : (⟨S64x2, .f32⟩ : BufTy).Contents (Elt F) → (⟨S2x64, .f32⟩ : BufTy).Contents (Elt F)),
    binary main_v22 main_v23 main_v24 ((fun l r => Host.dotGeneral dot_S128x2_S2x64_S128x64_1_0_0_1_n_n none l r) : (⟨S128x2, .f32⟩ : BufTy).Contents (Elt F) → (⟨S2x64, .f32⟩ : BufTy).Contents (Elt F) → (⟨S128x64, .f32⟩ : BufTy).Contents (Elt F)),
    unary main_arg6 main_v25 (broadcastInDim S1x64 ![1] bcast_S64_S1x64_1 : (⟨S64, .f32⟩ : BufTy).Contents (Elt F) → (⟨S1x64, .f32⟩ : BufTy).Contents (Elt F)),
    unary main_v25 main_v26 (broadcastInDim S128x64 ![0, 1] bcast_S1x64_S128x64_0_1 : (⟨S1x64, .f32⟩ : BufTy).Contents (Elt F) → (⟨S128x64, .f32⟩ : BufTy).Contents (Elt F)),
    binary main_v24 main_v26 main_v27 (addf : (⟨S128x64, .f32⟩ : BufTy).Contents (Elt F) → (⟨S128x64, .f32⟩ : BufTy).Contents (Elt F) → (⟨S128x64, .f32⟩ : BufTy).Contents (Elt F)),
    unary main_v27 main_v28 (Host.tanh : (⟨S128x64, .f32⟩ : BufTy).Contents (Elt F) → (⟨S128x64, .f32⟩ : BufTy).Contents (Elt F)),
    unary main_v28 main_v29 (broadcastInDim S128x1x64 ![0, 2] bcast_S128x64_S128x1x64_0_2 : (⟨S128x64, .f32⟩ : BufTy).Contents (Elt F) → (⟨S128x1x64, .f32⟩ : BufTy).Contents (Elt F)),
    unary main_v29 main_v30 (broadcastInDim S128x64x64 ![0, 1, 2] bcast_S128x1x64_S128x64x64_0_1_2 : (⟨S128x1x64, .f32⟩ : BufTy).Contents (Elt F) → (⟨S128x64x64, .f32⟩ : BufTy).Contents (Elt F)) ]

-- sixty-two binds re-associated: the rewrite under the chain recurses once per statement
set_option maxRecDepth 2048 in
/-- The program is that straight line: the called functions' bodies written out at their calls and the sequencing
    re-associated. -/
theorem main_eq (c : Dev nD) : main (F := F) c = seq ops := by
  simp only [main, fn_relu.body, fn_norm.body, fn_std.body, fn_var.body, fn_where.body, seq, bind_assoc, pure_bind]

/-! ## The result buffer's fold, stage by stage -/

/-- The hidden layer of every row: the product with the first weights contracted on their last axis, the bias broadcast
    over rows and positions, the maximum with zero. -/
def hiddenArr (x : FVec F S128x4096x128 .f32) (w1 : FVec F S2x128 .f32) (b1 : FVec F S2 .f32) : FVec F S128x4096x2 .f32 :=
  maximumf
    (addf (Host.dotGeneral dot_S128x4096x128_S2x128_S128x4096x2_2_1_01_0_n_n none x w1)
      (broadcastInDim S128x4096x2 ![0, 1, 2] bcast_S1x1x2_S128x4096x2_0_1_2 (broadcastInDim S1x1x2 ![2] bcast_S2_S1x1x2_2 b1)))
    (broadcastInDim S128x4096x2 ![] bcast_S_S128x4096x2 (constant S_ .f32 0x00000000#32))

/-- The projection to one number per position. -/
def projArr (h : FVec F S128x4096x2 .f32) (w2 : FVec F S1x2 .f32) (b2 : FVec F S1 .f32) : FVec F S128x4096x1 .f32 :=
  addf (Host.dotGeneral dot_S128x4096x2_S1x2_S128x4096x1_2_1_01_0_n_n none h w2)
    (broadcastInDim S128x4096x1 ![0, 1, 2] bcast_S1x1x1_S128x4096x1_0_1_2 (broadcastInDim S1x1x1 ![2] bcast_S1_S1x1x1_2 b2))

/-- The lag-two differences. -/
def diffArr (p : FVec F S128x4096x1 .f32) : FVec F S128x4094x1 .f32 :=
  subf (extractStridedSlice S128x4094x1 ![0, 2, 0] p slices_S128x4096x1_S128x4094x1_0_2_0)
    (extractStridedSlice S128x4094x1 ![0, 0, 0] p slices_S128x4096x1_S128x4094x1_0_0_0)

/-- Their logarithms: the norm over the unit axis, ε added, the logarithm. -/
def logArr (d : FVec F S128x4094x1 .f32) : FVec F S128x4094 .f32 :=
  Host.log
    (addf (Host.sqrt (Host.reduceAdd (mulf d d) (constant S_ .f32 0x00000000#32) reducesTo_S128x4094x1_S128x4094_d2 h_S_))
      (broadcastInDim S128x4094 ![] bcast_S_S128x4094 (constant S_ .f32 0x358637BD#32)))

/-- The mean of every row's logarithms. -/
def meanArr (l : FVec F S128x4094 .f32) : FVec F S128 .f32 :=
  Host.divf (Host.reduceAdd l (constant S_ .f32 0x00000000#32) reducesTo_S128x4094_S128_d1 h_S_)
    (broadcastInDim S128 ![] bcast_S_S128 (constant S_ .f32 0x457FE000#32))

/-- The divisor of the unbiased variance, computed: 4094 less the converted integer one. -/
def lessOne : FVec F S_ .f32 := subf (constant S_ .f32 0x457FE000#32) (sitofp .f32 (constantI S_ 32 1#32))

/-- The deviations from the mean, squared. -/
def sqDevArr (l : FVec F S128x4094 .f32) : FVec F S128x4094 .f32 :=
  mulf
    (subf l (broadcastInDim S128x4094 ![0, 1] bcast_S128x1_S128x4094_0_1
      (Host.divf (broadcastInDim S128x1 ![0] bcast_S128_S128x1_0 (Host.reduceAdd l (constant S_ .f32 0x00000000#32) reducesTo_S128x4094_S128_d1 h_S_))
        (broadcastInDim S128x1 ![] bcast_S_S128x1 (constant S_ .f32 0x457FE000#32)))))
    (subf l (broadcastInDim S128x4094 ![0, 1] bcast_S128x1_S128x4094_0_1
      (Host.divf (broadcastInDim S128x1 ![0] bcast_S128_S128x1_0 (Host.reduceAdd l (constant S_ .f32 0x00000000#32) reducesTo_S128x4094_S128_d1 h_S_))
        (broadcastInDim S128x1 ![] bcast_S_S128x1 (constant S_ .f32 0x457FE000#32)))))

/-- The spread of every row's logarithms: the guarded quotient, square-rooted. -/
def spreadArr (l : FVec F S128x4094 .f32) : FVec F S128 .f32 :=
  Host.sqrt
    (select (broadcastInDim S128 ![] bcast_S_S128 (cmpf .ogt (lessOne (F := F)) (constant S_ .f32 0x00000000#32)))
      (Host.divf (Host.reduceAdd (sqDevArr l) (constant S_ .f32 0x00000000#32) reducesTo_S128x4094_S128_d1 h_S_)
        (broadcastInDim S128 ![] bcast_S_S128 (lessOne (F := F))))
      (broadcastInDim S128 ![] bcast_S_S128 (id (constant S_ .f32 0x7FC00000#32))))

/-- The output features from the two statistics, broadcast over the 64 output rows. -/
def outArr (mu sd : FVec F S128 .f32) (w3 : FVec F S64x2 .f32) (b3 : FVec F S64 .f32) : FVec F S128x64x64 .f32 :=
  broadcastInDim S128x64x64 ![0, 1, 2] bcast_S128x1x64_S128x64x64_0_1_2
    (broadcastInDim S128x1x64 ![0, 2] bcast_S128x64_S128x1x64_0_2
      (Host.tanh
        (addf
          (Host.dotGeneral dot_S128x2_S2x64_S128x64_1_0_0_1_n_n none
            (concatenate S128x2 1 [⟨S128x1, broadcastInDim S128x1 ![0] bcast_S128_S128x1_0 mu⟩, ⟨S128x1, broadcastInDim S128x1 ![0] bcast_S128_S128x1_0 sd⟩]
              concatenates_S128x1_S128x1_S128x2_d1)
            (transpose S2x64 [1, 0] w3 transposes_S64x2_S2x64_1_0))
          (broadcastInDim S128x64 ![0, 1] bcast_S1x64_S128x64_0_1 (broadcastInDim S1x64 ![1] bcast_S64_S1x64_1 b3)))))

/-- The whole composition. -/
def out (x : FVec F S128x4096x128 .f32) (w1 : FVec F S2x128 .f32) (b1 : FVec F S2 .f32) (w2 : FVec F S1x2 .f32) (b2 : FVec F S1 .f32)
    (w3 : FVec F S64x2 .f32) (b3 : FVec F S64 .f32) : FVec F S128x64x64 .f32 :=
  outArr (meanArr (logArr (diffArr (projArr (hiddenArr x w1 b1) w2 b2)))) (spreadArr (logArr (diffArr (projArr (hiddenArr x w1 b1) w2 b2)))) w3 b3

attribute [local irreducible] Host.reduceAdd concatenate in
set_option maxRecDepth 8192 in
set_option maxHeartbeats 1600000 in
/-- The fold at the result buffer is the composition, by computation: the fold unrolled, each operation's result deciding
    whether the buffer read is the one it writes. The sums and products are kept folded meanwhile. -/
theorem out_eq (V : Valuation τ sig (Elt F)) :
    after ops V (main_v30 : DevRef τ sig)
      = out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  simp only [after_cons, after_nil]
  rfl

set_option maxRecDepth 8192 in
theorem arg0_eq (V : Valuation τ sig (Elt F)) : after ops V (main_arg0 : DevRef τ sig) = V (main_arg0 : DevRef τ sig) := by
  simp only [after_cons, after_nil]; rfl
set_option maxRecDepth 8192 in
theorem arg1_eq (V : Valuation τ sig (Elt F)) : after ops V (main_arg1 : DevRef τ sig) = V (main_arg1 : DevRef τ sig) := by
  simp only [after_cons, after_nil]; rfl
set_option maxRecDepth 8192 in
theorem arg2_eq (V : Valuation τ sig (Elt F)) : after ops V (main_arg2 : DevRef τ sig) = V (main_arg2 : DevRef τ sig) := by
  simp only [after_cons, after_nil]; rfl
set_option maxRecDepth 8192 in
theorem arg3_eq (V : Valuation τ sig (Elt F)) : after ops V (main_arg3 : DevRef τ sig) = V (main_arg3 : DevRef τ sig) := by
  simp only [after_cons, after_nil]; rfl
set_option maxRecDepth 8192 in
theorem arg4_eq (V : Valuation τ sig (Elt F)) : after ops V (main_arg4 : DevRef τ sig) = V (main_arg4 : DevRef τ sig) := by
  simp only [after_cons, after_nil]; rfl
set_option maxRecDepth 8192 in
theorem arg5_eq (V : Valuation τ sig (Elt F)) : after ops V (main_arg5 : DevRef τ sig) = V (main_arg5 : DevRef τ sig) := by
  simp only [after_cons, after_nil]; rfl
set_option maxRecDepth 8192 in
theorem arg6_eq (V : Valuation τ sig (Elt F)) : after ops V (main_arg6 : DevRef τ sig) = V (main_arg6 : DevRef τ sig) := by
  simp only [after_cons, after_nil]; rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub .., binary_bufs_sub ..,
    binary_bufs_sub .., nullary_bufs_sub .., binary_bufs_sub .., unary_bufs_sub ..,
    nullary_bufs_sub .., unary_bufs_sub .., binary_bufs_sub .., unary_bufs_sub .., nullary_bufs_sub .., binary_bufs_sub ..,
    nullary_bufs_sub .., unary_bufs_sub .., binary_bufs_sub .., nullary_bufs_sub ..,
    nullary_bufs_sub .., binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub ..,
    unary_bufs_sub .., unary_bufs_sub .., binary_bufs_sub .., unary_bufs_sub .., binary_bufs_sub .., unary_bufs_sub .., unary_bufs_sub ..,
    binary_bufs_sub .., unary_bufs_sub .., unary_bufs_sub .., unary_bufs_sub ..⟩

/-- On every device, for any float values, from any memory with zero counters: every weakly fair execution of the reference
    terminates with the result buffer at the composition of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v30).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.Consts.lean ====
/-
  The two float patterns whose values matter: 4094 and 4093. The reference computes its second divisor as 4094 minus the
  integer 1 converted to a float, and checks that it is positive before dividing; the kernel spells 4093 directly.
-/
import Idealize.ShloMosaic.PureOps.Ideal

noncomputable section

namespace Cert.DelayStats.Consts

open Idealize.ShloMosaic

/-- The pattern 0x457FE000 denotes 4094. -/
theorem ofBits_count : Ideal.ofBits .f32 0x457FE000#32 = ((4094 : ℝ) : EReal) := by
  simp [Ideal.ofBits, Ideal.ieee, -EReal.coe_mul]; norm_num

/-- The pattern 0x457FD000 denotes 4093. -/
theorem ofBits_countLessOne : Ideal.ofBits .f32 0x457FD000#32 = ((4093 : ℝ) : EReal) := by
  simp [Ideal.ofBits, Ideal.ieee, -EReal.coe_mul]; norm_num

/-- 4094 less the integer one, converted, is the pattern of 4093. -/
theorem count_sub_one :
    Ideal.ofBits .f32 0x457FE000#32 - (((1#32 : BitVec 32).toInt : ℝ) : EReal) = Ideal.ofBits .f32 0x457FD000#32 := by
  rw [ofBits_count, ofBits_countLessOne, ← EReal.coe_sub]
  norm_num

/-- And 4093 is above zero. -/
theorem countLessOne_pos : (0 : EReal) < Ideal.ofBits .f32 0x457FD000#32 := by
  rw [ofBits_countLessOne]
  exact EReal.coe_pos.mpr (by norm_num)

end Cert.DelayStats.Consts

end
-- ==== Proof.RefRead.lean ====
/-
  The reference's result read at an index.

  Each stage of the reference's composition, read at an index in coordinates, is the specification's function of the same
  name on the batch row the index names: the three products are sums over the contracted coordinate (128 input features,
  then the 2 hidden units, then the 2 statistics), a bias broadcast reads the bias at the last coordinate, the two slices
  read two positions ahead and at the position itself, the sum over a unit axis is its one term, the sums over positions
  start from zero, the guarded divisor 4094 − 1 is 4093 and is positive so the guard keeps the quotient, the two statistics
  set side by side are read back by column, and the last two broadcasts copy the feature row to the 64 output rows.
-/
import proofs.«102095_j71683004170598_1_alg».proof.Proof.RefRun
import proofs.«102095_j71683004170598_1_alg».proof.Proof.Spec
import proofs.«102095_j71683004170598_1_alg».proof.Proof.Consts
import Idealize.ShloMosaic.Lib.Pipeline.Value
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.RefRun Idealize.ShloMosaic Idealize.ShloMosaic.ValueIdx Cert.DelayStats

/-! ## Layout reads -/

/-- A scalar broadcast to any shape reads the scalar. -/
theorem splat_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- The first bias, broadcast over rows and positions, reads the bias at the hidden unit. -/
theorem bias1_apply {α : Type} (b1 : S2.Idx → α) (h1 : S2.BroadcastsInDim S1x1x2 (![2] : Fin 1 → Fin S1x1x2.rank))
    (h2 : S1x1x2.BroadcastsInDim S128x4096x2 (![0, 1, 2] : Fin 3 → Fin S128x4096x2.rank)) (b : Fin 128) (s : Fin 4096) (e : Fin 2) :
    broadcastInDim S128x4096x2 ![0, 1, 2] h2 (broadcastInDim S1x1x2 ![2] h1 b1) (ix3 b s e) = b1 (ix1 e) := by
  rw [broadcastInDim_apply _ h2 _ (ix3 b s e) (ix3 (0 : Fin 1) (0 : Fin 1) e) (fun a => match a with
    | ⟨0, _⟩ => rfl
    | ⟨1, _⟩ => rfl
    | ⟨2, _⟩ => rfl)]
  exact broadcastInDim_apply _ h1 b1 _ (ix1 e) (fun a => match a with
    | ⟨0, _⟩ => rfl)

/-- The second bias likewise reads its one entry. -/
theorem bias2_apply {α : Type} (b2 : S1.Idx → α) (h1 : S1.BroadcastsInDim S1x1x1 (![2] : Fin 1 → Fin S1x1x1.rank))
    (h2 : S1x1x1.BroadcastsInDim S128x4096x1 (![0, 1, 2] : Fin 3 → Fin S128x4096x1.rank)) (b : Fin 128) (s : Fin 4096) (u : Fin 1) :
    broadcastInDim S128x4096x1 ![0, 1, 2] h2 (broadcastInDim S1x1x1 ![2] h1 b2) (ix3 b s u) = b2 (ix1 (0 : Fin 1)) := by
  rw [broadcastInDim_apply _ h2 _ (ix3 b s u) (ix3 (0 : Fin 1) (0 : Fin 1) (0 : Fin 1)) (fun a => match a with
    | ⟨0, _⟩ => rfl
    | ⟨1, _⟩ => rfl
    | ⟨2, _⟩ => rfl)]
  exact broadcastInDim_apply _ h1 b2 _ (ix1 (0 : Fin 1)) (fun a => match a with
    | ⟨0, _⟩ => rfl)

/-- The third bias, broadcast over rows, reads the bias at the output column. -/
theorem bias3_apply {α : Type} (b3 : S64.Idx → α) (h1 : S64.BroadcastsInDim S1x64 (![1] : Fin 1 → Fin S1x64.rank))
    (h2 : S1x64.BroadcastsInDim S128x64 (![0, 1] : Fin 2 → Fin S128x64.rank)) (b : Fin 128) (j : Fin 64) :
    broadcastInDim S128x64 ![0, 1] h2 (broadcastInDim S1x64 ![1] h1 b3) (ix2 b j) = b3 (ix1 j) := by
  rw [broadcastInDim_apply _ h2 _ (ix2 b j) (ix2 (0 : Fin 1) j) (fun a => match a with
    | ⟨0, _⟩ => rfl
    | ⟨1, _⟩ => rfl)]
  exact broadcastInDim_apply _ h1 b3 _ (ix1 j) (fun a => match a with
    | ⟨0, _⟩ => rfl)

/-- A per-row number kept as a column reads the number. -/
theorem toColumn_apply {α : Type} (v : S128.Idx → α) (h : S128.BroadcastsInDim S128x1 (![0] : Fin 1 → Fin S128x1.rank)) (b : Fin 128) (u : Fin 1) :
    broadcastInDim S128x1 ![0] h v (ix2 b u) = v (ix1 b) :=
  broadcastInDim_apply _ h v _ (ix1 b) (fun a => match a with
    | ⟨0, _⟩ => rfl)

/-- A column broadcast along the positions reads the column. -/
theorem alongRow_apply {α : Type} (v : S128x1.Idx → α) (h : S128x1.BroadcastsInDim S128x4094 (![0, 1] : Fin 2 → Fin S128x4094.rank)) (b : Fin 128)
    (s : Fin 4094) : broadcastInDim S128x4094 ![0, 1] h v (ix2 b s) = v (ix2 b (0 : Fin 1)) :=
  broadcastInDim_apply _ h v _ (ix2 b (0 : Fin 1)) (fun a => match a with
    | ⟨0, _⟩ => rfl
    | ⟨1, _⟩ => rfl)

/-- The feature rows copied to the 64 output rows read the feature row. -/
theorem overRows_apply {α : Type} (v : S128x64.Idx → α) (h1 : S128x64.BroadcastsInDim S128x1x64 (![0, 2] : Fin 2 → Fin S128x1x64.rank))
    (h2 : S128x1x64.BroadcastsInDim S128x64x64 (![0, 1, 2] : Fin 3 → Fin S128x64x64.rank)) (b : Fin 128) (r j : Fin 64) :
    broadcastInDim S128x64x64 ![0, 1, 2] h2 (broadcastInDim S128x1x64 ![0, 2] h1 v) (ix3 b r j) = v (ix2 b j) := by
  rw [broadcastInDim_apply _ h2 _ (ix3 b r j) (ix3 b (0 : Fin 1) j) (fun a => match a with
    | ⟨0, _⟩ => rfl
    | ⟨1, _⟩ => rfl
    | ⟨2, _⟩ => rfl)]
  exact broadcastInDim_apply _ h1 v _ (ix2 b j) (fun a => match a with
    | ⟨0, _⟩ => rfl
    | ⟨1, _⟩ => rfl)

/-- The slice from position two on reads two positions ahead; the slice from position zero reads the position. -/
theorem ahead_apply {α : Type} (p : S128x4096x1.Idx → α) (h : S128x4096x1.Slices ![0, 2, 0] S128x4094x1) (b : Fin 128) (s : Fin 4094) (u : Fin 1) :
    extractStridedSlice S128x4094x1 ![0, 2, 0] p h (ix3 b s u) = p (ix3 b (ahead s) u) :=
  extractStridedSlice_apply _ p h _ _ (fun a => match a with
    | ⟨0, _⟩ => by show b.val = 0 + b.val; omega
    | ⟨1, _⟩ => by show s.val + 2 = 2 + s.val; omega
    | ⟨2, _⟩ => by show u.val = 0 + u.val; omega)

theorem here_apply {α : Type} (p : S128x4096x1.Idx → α) (h : S128x4096x1.Slices ![0, 0, 0] S128x4094x1) (b : Fin 128) (s : Fin 4094) (u : Fin 1) :
    extractStridedSlice S128x4094x1 ![0, 0, 0] p h (ix3 b s u) = p (ix3 b (here s) u) :=
  extractStridedSlice_apply _ p h _ _ (fun a => match a with
    | ⟨0, _⟩ => by show b.val = 0 + b.val; omega
    | ⟨1, _⟩ => by show s.val = 0 + s.val; omega
    | ⟨2, _⟩ => by show u.val = 0 + u.val; omega)

/-- The transposed third weights read the weights with the coordinates exchanged. -/
theorem transposed_apply {α : Type} (w3 : S64x2.Idx → α) (h : S64x2.Transposes [1, 0] S2x64) (k : Fin 2) (j : Fin 64) :
    transpose S2x64 [1, 0] w3 h (ix2 k j) = w3 (ix2 j k) :=
  transpose_apply _ w3 h _ _ (fun a => match a with
    | ⟨0, _⟩ => rfl
    | ⟨1, _⟩ => rfl)

/-- Two columns side by side: column zero reads the first, column one the second. -/
theorem beside_left_apply {α : Type} (x₁ x₂ : S128x1.Idx → α) (h : Shape.Concatenates [S128x1, S128x1] S128x2 1) (b : Fin 128) :
    concatenate S128x2 1 [⟨S128x1, x₁⟩, ⟨S128x1, x₂⟩] h (ix2 b (0 : Fin 2)) = x₁ (ix2 b (0 : Fin 1)) :=
  concatenate_pair_apply_left (1 : Fin S128x2.rank) x₁ x₂ h (ix2 b (0 : Fin 2)) rfl (ix2 b (0 : Fin 1)) (fun a => match a with
    | ⟨0, _⟩ => rfl
    | ⟨1, _⟩ => rfl)

theorem beside_right_apply {α : Type} (x₁ x₂ : S128x1.Idx → α) (h : Shape.Concatenates [S128x1, S128x1] S128x2 1) (b : Fin 128) :
    concatenate S128x2 1 [⟨S128x1, x₁⟩, ⟨S128x1, x₂⟩] h (ix2 b (1 : Fin 2)) = x₂ (ix2 b (0 : Fin 1)) :=
  concatenate_pair_apply_right (1 : Fin S128x2.rank) x₁ x₂ h (ix2 b (1 : Fin 2)) rfl rfl (ix2 b (0 : Fin 1)) (fun a => match a with
    | ⟨0, _⟩ => fun _ => rfl
    | ⟨1, _⟩ => fun hne => absurd rfl hne) rfl

/-! ## The three products -/

/-- Rows of features against the first weights, contracted on the 128 features. -/
theorem dot1_apply (x : FVec Ideal S128x4096x128 .f32) (w1 : FVec Ideal S2x128 .f32) (b : Fin 128) (s : Fin 4096) (e : Fin 2) :
    Host.dotGeneral dot_S128x4096x128_S2x128_S128x4096x2_2_1_01_0_n_n none x w1 (ix3 b s e) = ∑ d : Fin 128, x (ix3 b s d) * w1 (ix2 e d) := by
  refine (Ideal.dotGeneral_apply dot_S128x4096x128_S2x128_S128x4096x2_2_1_01_0_n_n none .single x w1 (ix3 b s e)).trans ?_
  rw [← Equiv.sum_comp (contrEquiv1 dot_S128x4096x128_S2x128_S128x4096x2_2_1_01_0_n_n 128 rfl rfl).symm]
  refine Finset.sum_congr rfl fun d _ => ?_
  have hl : DotDims.lhsIdx dot_S128x4096x128_S2x128_S128x4096x2_2_1_01_0_n_n (ix3 b s e) ((contrEquiv1 dot_S128x4096x128_S2x128_S128x4096x2_2_1_01_0_n_n 128 rfl rfl).symm d) = ix3 b s d := by
    funext a; apply Fin.ext
    match a with
    | ⟨0, _⟩ => rfl
    | ⟨1, _⟩ => rfl
    | ⟨2, _⟩ => exact (DotDims.lhsIdx_val_of_single dot_S128x4096x128_S2x128_S128x4096x2_2_1_01_0_n_n (cl := 2) rfl (ix3 b s e) _).trans (contrEquiv1_symm_val dot_S128x4096x128_S2x128_S128x4096x2_2_1_01_0_n_n 128 rfl rfl d)
  have hr : DotDims.rhsIdx dot_S128x4096x128_S2x128_S128x4096x2_2_1_01_0_n_n (ix3 b s e) ((contrEquiv1 dot_S128x4096x128_S2x128_S128x4096x2_2_1_01_0_n_n 128 rfl rfl).symm d) = ix2 e d := by
    funext a; apply Fin.ext
    match a with
    | ⟨0, _⟩ => rfl
    | ⟨1, _⟩ => exact (DotDims.rhsIdx_val_of_single dot_S128x4096x128_S2x128_S128x4096x2_2_1_01_0_n_n (cr := 1) rfl (ix3 b s e) _).trans (contrEquiv1_symm_val dot_S128x4096x128_S2x128_S128x4096x2_2_1_01_0_n_n 128 rfl rfl d)
  rw [hl, hr]

/-- The hidden units against the second weights, contracted on the 2 units. -/
theorem dot2_apply (h : FVec Ideal S128x4096x2 .f32) (w2 : FVec Ideal S1x2 .f32) (b : Fin 128) (s : Fin 4096) (u : Fin 1) :
    Host.dotGeneral dot_S128x4096x2_S1x2_S128x4096x1_2_1_01_0_n_n none h w2 (ix3 b s u) = ∑ k : Fin 2, h (ix3 b s k) * w2 (ix2 u k) := by
  refine (Ideal.dotGeneral_apply dot_S128x4096x2_S1x2_S128x4096x1_2_1_01_0_n_n none .single h w2 (ix3 b s u)).trans ?_
  rw [← Equiv.sum_comp (contrEquiv1 dot_S128x4096x2_S1x2_S128x4096x1_2_1_01_0_n_n 2 rfl rfl).symm]
  refine Finset.sum_congr rfl fun k _ => ?_
  have hl : DotDims.lhsIdx dot_S128x4096x2_S1x2_S128x4096x1_2_1_01_0_n_n (ix3 b s u) ((contrEquiv1 dot_S128x4096x2_S1x2_S128x4096x1_2_1_01_0_n_n 2 rfl rfl).symm k) = ix3 b s k := by
    funext a; apply Fin.ext
    match a with
    | ⟨0, _⟩ => rfl
    | ⟨1, _⟩ => rfl
    | ⟨2, _⟩ => exact (DotDims.lhsIdx_val_of_single dot_S128x4096x2_S1x2_S128x4096x1_2_1_01_0_n_n (cl := 2) rfl (ix3 b s u) _).trans (contrEquiv1_symm_val dot_S128x4096x2_S1x2_S128x4096x1_2_1_01_0_n_n 2 rfl rfl k)
  have hr : DotDims.rhsIdx dot_S128x4096x2_S1x2_S128x4096x1_2_1_01_0_n_n (ix3 b s u) ((contrEquiv1 dot_S128x4096x2_S1x2_S128x4096x1_2_1_01_0_n_n 2 rfl rfl).symm k) = ix2 u k := by
    funext a; apply Fin.ext
    match a with
    | ⟨0, _⟩ => rfl
    | ⟨1, _⟩ => exact (DotDims.rhsIdx_val_of_single dot_S128x4096x2_S1x2_S128x4096x1_2_1_01_0_n_n (cr := 1) rfl (ix3 b s u) _).trans (contrEquiv1_symm_val dot_S128x4096x2_S1x2_S128x4096x1_2_1_01_0_n_n 2 rfl rfl k)
  rw [hl, hr]

/-- The two statistics against the transposed third weights, contracted on the 2 statistics. -/
theorem dot3_apply (f : FVec Ideal S128x2 .f32) (w : FVec Ideal S2x64 .f32) (b : Fin 128) (j : Fin 64) :
    Host.dotGeneral dot_S128x2_S2x64_S128x64_1_0_0_1_n_n none f w (ix2 b j) = ∑ k : Fin 2, f (ix2 b k) * w (ix2 k j) := by
  refine (Ideal.dotGeneral_apply dot_S128x2_S2x64_S128x64_1_0_0_1_n_n none .single f w (ix2 b j)).trans ?_
  rw [← Equiv.sum_comp (contrEquiv1 dot_S128x2_S2x64_S128x64_1_0_0_1_n_n 2 rfl rfl).symm]
  refine Finset.sum_congr rfl fun k _ => ?_
  have hl : DotDims.lhsIdx dot_S128x2_S2x64_S128x64_1_0_0_1_n_n (ix2 b j) ((contrEquiv1 dot_S128x2_S2x64_S128x64_1_0_0_1_n_n 2 rfl rfl).symm k) = ix2 b k := by
    funext a; apply Fin.ext
    match a with
    | ⟨0, _⟩ => rfl
    | ⟨1, _⟩ => exact (DotDims.lhsIdx_val_of_single dot_S128x2_S2x64_S128x64_1_0_0_1_n_n (cl := 1) rfl (ix2 b j) _).trans (contrEquiv1_symm_val dot_S128x2_S2x64_S128x64_1_0_0_1_n_n 2 rfl rfl k)
  have hr : DotDims.rhsIdx dot_S128x2_S2x64_S128x64_1_0_0_1_n_n (ix2 b j) ((contrEquiv1 dot_S128x2_S2x64_S128x64_1_0_0_1_n_n 2 rfl rfl).symm k) = ix2 k j := by
    funext a; apply Fin.ext
    match a with
    | ⟨0, _⟩ => exact (DotDims.rhsIdx_val_of_single dot_S128x2_S2x64_S128x64_1_0_0_1_n_n (cr := 0) rfl (ix2 b j) _).trans (contrEquiv1_symm_val dot_S128x2_S2x64_S128x64_1_0_0_1_n_n 2 rfl rfl k)
    | ⟨1, _⟩ => rfl
  rw [hl, hr]

/-! ## The sums -/

/-- The sum over the unit last axis, from zero, is its one term. -/
theorem sumUnit_apply (x : FVec Ideal S128x4094x1 .f32) (h : S128x4094x1.ReducesTo [2] S128x4094) (hu : 0 < S_.numel) (b : Fin 128) (s : Fin 4094) :
    Host.reduceAdd x (constant (F := Ideal) S_ .f32 0x00000000#32) h hu (ix2 b s) = x (ix3 b s (0 : Fin 1)) := by
  have hr : S128x4094x1.Reduces [2] S128x4094 := by decide
  refine (Ideal.hostReduceAdd_single h hr x _ (ix2 b s)).trans ?_
  show Ideal.ofBits .f32 0x00000000#32 + ∑ k : Fin 1, x (hr.lift (ix2 b s) k) = _
  rw [Fin.sum_univ_one, Ideal.ofBits_zero_f32, zero_add]
  exact congrArg x (funext fun a => Fin.ext (by
    match a with
    | ⟨0, _⟩ => rfl
    | ⟨1, _⟩ => rfl
    | ⟨2, _⟩ => rfl))

/-- The sum over the positions of a row, from zero. -/
theorem rowSum_apply (l : FVec Ideal S128x4094 .f32) (h : S128x4094.ReducesTo [1] S128) (hu : 0 < S_.numel) (b : Fin 128) :
    Host.reduceAdd l (constant (F := Ideal) S_ .f32 0x00000000#32) h hu (ix1 b) = ∑ s : Fin 4094, l (ix2 b s) := by
  have hr : S128x4094.Reduces [1] S128 := by decide
  refine (Ideal.hostReduceAdd_single h hr l _ (ix1 b)).trans ?_
  show Ideal.ofBits .f32 0x00000000#32 + ∑ s : Fin 4094, l (hr.lift (ix1 b) s) = _
  rw [Ideal.ofBits_zero_f32, zero_add]
  refine Finset.sum_congr rfl fun s _ => congrArg l (funext fun a => Fin.ext (by
    match a with
    | ⟨0, _⟩ => rfl
    | ⟨1, _⟩ => rfl))

/-! ## The stages -/

theorem hiddenArr_apply (x : FVec Ideal S128x4096x128 .f32) (w1 : FVec Ideal S2x128 .f32) (b1 : FVec Ideal S2 .f32) (b : Fin 128) (s : Fin 4096)
    (e : Fin 2) :
    hiddenArr x w1 b1 (ix3 b s e) = hidden (fun s d => x (ix3 b s d)) (fun e d => w1 (ix2 e d)) (fun e => b1 (ix1 e)) s e := by
  show max (Host.dotGeneral dot_S128x4096x128_S2x128_S128x4096x2_2_1_01_0_n_n none x w1 (ix3 b s e)
        + broadcastInDim S128x4096x2 ![0, 1, 2] bcast_S1x1x2_S128x4096x2_0_1_2 (broadcastInDim S1x1x2 ![2] bcast_S2_S1x1x2_2 b1) (ix3 b s e))
      (broadcastInDim S128x4096x2 ![] bcast_S_S128x4096x2 (constant (F := Ideal) S_ .f32 0x00000000#32) (ix3 b s e)) = _
  rw [dot1_apply, bias1_apply, splat_apply]
  show max _ (Ideal.ofBits .f32 0x00000000#32) = _
  rw [Ideal.ofBits_zero_f32]
  rfl

theorem projArr_apply (h : FVec Ideal S128x4096x2 .f32) (w2 : FVec Ideal S1x2 .f32) (b2 : FVec Ideal S1 .f32) (b : Fin 128) (s : Fin 4096) :
    projArr h w2 b2 (ix3 b s (0 : Fin 1))
      = h (ix3 b s (0 : Fin 2)) * w2 (ix2 (0 : Fin 1) (0 : Fin 2)) + h (ix3 b s (1 : Fin 2)) * w2 (ix2 (0 : Fin 1) (1 : Fin 2))
        + b2 (ix1 (0 : Fin 1)) := by
  show Host.dotGeneral dot_S128x4096x2_S1x2_S128x4096x1_2_1_01_0_n_n none h w2 (ix3 b s (0 : Fin 1))
      + broadcastInDim S128x4096x1 ![0, 1, 2] bcast_S1x1x1_S128x4096x1_0_1_2 (broadcastInDim S1x1x1 ![2] bcast_S1_S1x1x1_2 b2) (ix3 b s (0 : Fin 1)) = _
  rw [dot2_apply, bias2_apply, Fin.sum_univ_two]

theorem diffArr_apply (p : FVec Ideal S128x4096x1 .f32) (b : Fin 128) (s : Fin 4094) :
    diffArr p (ix3 b s (0 : Fin 1)) = p (ix3 b (ahead s) (0 : Fin 1)) - p (ix3 b (here s) (0 : Fin 1)) := by
  show extractStridedSlice S128x4094x1 ![0, 2, 0] p slices_S128x4096x1_S128x4094x1_0_2_0 (ix3 b s (0 : Fin 1))
      - extractStridedSlice S128x4094x1 ![0, 0, 0] p slices_S128x4096x1_S128x4094x1_0_0_0 (ix3 b s (0 : Fin 1)) = _
  rw [ahead_apply, here_apply]

theorem logArr_apply (d : FVec Ideal S128x4094x1 .f32) (b : Fin 128) (s : Fin 4094) :
    logArr d (ix2 b s) = Ideal.log (Ideal.sqrt (d (ix3 b s (0 : Fin 1)) * d (ix3 b s (0 : Fin 1))) + epsLit) := by
  show Ideal.log (Ideal.sqrt (Host.reduceAdd (mulf d d) (constant (F := Ideal) S_ .f32 0x00000000#32) reducesTo_S128x4094x1_S128x4094_d2 h_S_ (ix2 b s))
      + broadcastInDim S128x4094 ![] bcast_S_S128x4094 (constant (F := Ideal) S_ .f32 0x358637BD#32) (ix2 b s)) = _
  rw [sumUnit_apply, splat_apply]
  rfl

theorem meanArr_apply (l : FVec Ideal S128x4094 .f32) (b : Fin 128) : meanArr l (ix1 b) = mean (fun s => l (ix2 b s)) := by
  show Ideal.div (Host.reduceAdd l (constant (F := Ideal) S_ .f32 0x00000000#32) reducesTo_S128x4094_S128_d1 h_S_ (ix1 b))
      (broadcastInDim S128 ![] bcast_S_S128 (constant (F := Ideal) S_ .f32 0x457FE000#32) (ix1 b)) = _
  rw [rowSum_apply, splat_apply]
  rfl

theorem sqDevArr_apply (l : FVec Ideal S128x4094 .f32) (b : Fin 128) (s : Fin 4094) :
    sqDevArr l (ix2 b s) = (l (ix2 b s) - mean (fun s => l (ix2 b s))) * (l (ix2 b s) - mean (fun s => l (ix2 b s))) := by
  have hm : broadcastInDim S128x4094 ![0, 1] bcast_S128x1_S128x4094_0_1
        (Host.divf (broadcastInDim S128x1 ![0] bcast_S128_S128x1_0 (Host.reduceAdd l (constant (F := Ideal) S_ .f32 0x00000000#32) reducesTo_S128x4094_S128_d1 h_S_))
          (broadcastInDim S128x1 ![] bcast_S_S128x1 (constant (F := Ideal) S_ .f32 0x457FE000#32))) (ix2 b s)
      = mean (fun s => l (ix2 b s)) := by
    rw [alongRow_apply]
    show Ideal.div (broadcastInDim S128x1 ![0] bcast_S128_S128x1_0 (Host.reduceAdd l (constant (F := Ideal) S_ .f32 0x00000000#32) reducesTo_S128x4094_S128_d1 h_S_) (ix2 b (0 : Fin 1)))
        (broadcastInDim S128x1 ![] bcast_S_S128x1 (constant (F := Ideal) S_ .f32 0x457FE000#32) (ix2 b (0 : Fin 1))) = _
    rw [toColumn_apply, rowSum_apply, splat_apply]
    rfl
  show (l (ix2 b s) - broadcastInDim S128x4094 ![0, 1] bcast_S128x1_S128x4094_0_1
        (Host.divf (broadcastInDim S128x1 ![0] bcast_S128_S128x1_0 (Host.reduceAdd l (constant (F := Ideal) S_ .f32 0x00000000#32) reducesTo_S128x4094_S128_d1 h_S_))
          (broadcastInDim S128x1 ![] bcast_S_S128x1 (constant (F := Ideal) S_ .f32 0x457FE000#32))) (ix2 b s))
      * (l (ix2 b s) - broadcastInDim S128x4094 ![0, 1] bcast_S128x1_S128x4094_0_1
        (Host.divf (broadcastInDim S128x1 ![0] bcast_S128_S128x1_0 (Host.reduceAdd l (constant (F := Ideal) S_ .f32 0x00000000#32) reducesTo_S128x4094_S128_d1 h_S_))
          (broadcastInDim S128x1 ![] bcast_S_S128x1 (constant (F := Ideal) S_ .f32 0x457FE000#32))) (ix2 b s)) = _
  rw [hm]

/-- The computed divisor is the pattern of 4093. -/
theorem lessOne_eq : lessOne (F := Ideal) ix0 = countLessOneLit := Consts.count_sub_one

/-- And the guard on it holds. -/
theorem guard_eq : cmpf .ogt (lessOne (F := Ideal)) (constant (F := Ideal) S_ .f32 0x00000000#32) ix0 = 1#1 := by
  show Ideal.cmp .ogt (lessOne (F := Ideal) ix0) (Ideal.ofBits .f32 0x00000000#32) = 1#1
  rw [lessOne_eq, Ideal.ofBits_zero_f32]
  show BitVec.ofBool (decide ((0 : EReal) < countLessOneLit)) = 1#1
  rw [decide_eq_true Consts.countLessOne_pos]
  rfl

theorem spreadArr_apply (l : FVec Ideal S128x4094 .f32) (b : Fin 128) : spreadArr l (ix1 b) = spread (fun s => l (ix2 b s)) := by
  show Ideal.sqrt (Scalar.select (broadcastInDim S128 ![] bcast_S_S128 (cmpf .ogt (lessOne (F := Ideal)) (constant (F := Ideal) S_ .f32 0x00000000#32)) (ix1 b))
      (Ideal.div (Host.reduceAdd (sqDevArr l) (constant (F := Ideal) S_ .f32 0x00000000#32) reducesTo_S128x4094_S128_d1 h_S_ (ix1 b))
        (broadcastInDim S128 ![] bcast_S_S128 (lessOne (F := Ideal)) (ix1 b)))
      (broadcastInDim S128 ![] bcast_S_S128 (id (constant (F := Ideal) S_ .f32 0x7FC00000#32)) (ix1 b))) = _
  rw [splat_apply, splat_apply, guard_eq, lessOne_eq, select_one, rowSum_apply]
  unfold spread
  refine congrArg Ideal.sqrt (congrArg (fun t => Ideal.div t countLessOneLit) (Finset.sum_congr rfl fun s _ => ?_))
  exact sqDevArr_apply l b s

theorem outArr_apply (mu sd : FVec Ideal S128 .f32) (w3 : FVec Ideal S64x2 .f32) (b3 : FVec Ideal S64 .f32) (b : Fin 128) (r j : Fin 64) :
    outArr mu sd w3 b3 (ix3 b r j)
      = Ideal.tanh (mu (ix1 b) * w3 (ix2 j (0 : Fin 2)) + sd (ix1 b) * w3 (ix2 j (1 : Fin 2)) + b3 (ix1 j)) := by
  unfold outArr
  rw [overRows_apply]
  show Ideal.tanh (Host.dotGeneral dot_S128x2_S2x64_S128x64_1_0_0_1_n_n none
        (concatenate S128x2 1 [⟨S128x1, broadcastInDim S128x1 ![0] bcast_S128_S128x1_0 mu⟩, ⟨S128x1, broadcastInDim S128x1 ![0] bcast_S128_S128x1_0 sd⟩]
          concatenates_S128x1_S128x1_S128x2_d1)
        (transpose S2x64 [1, 0] w3 transposes_S64x2_S2x64_1_0) (ix2 b j)
      + broadcastInDim S128x64 ![0, 1] bcast_S1x64_S128x64_0_1 (broadcastInDim S1x64 ![1] bcast_S64_S1x64_1 b3) (ix2 b j)) = _
  rw [dot3_apply, bias3_apply, Fin.sum_univ_two, beside_left_apply, beside_right_apply, toColumn_apply, toColumn_apply, transposed_apply,
    transposed_apply]

/-! ## The result -/

/-- The reference's composition is the specification's result, index by index. -/
theorem out_eq_result (x : FVec Ideal S128x4096x128 .f32) (w1 : FVec Ideal S2x128 .f32) (b1 : FVec Ideal S2 .f32) (w2 : FVec Ideal S1x2 .f32)
    (b2 : FVec Ideal S1 .f32) (w3 : FVec Ideal S64x2 .f32) (b3 : FVec Ideal S64 .f32) :
    out (F := Ideal) x w1 b1 w2 b2 w3 b3 = result x w1 b1 w2 b2 w3 b3 := by
  funext i
  obtain ⟨b, r, j, rfl⟩ : ∃ (b : Fin 128) (r : Fin 64) (j : Fin 64), i = ix3 b r j := ⟨i 0, i 1, i 2, eq_ix3 i⟩
  have hl : (fun s : Fin 4094 => logArr (diffArr (projArr (hiddenArr x w1 b1) w2 b2)) (ix2 b s))
      = logDiff (fun s d => x (ix3 b s d)) (fun e d => w1 (ix2 e d)) (fun e => b1 (ix1 e)) (fun e => w2 (ix2 (0 : Fin 1) e)) (b2 (ix1 (0 : Fin 1))) := by
    funext s
    rw [logArr_apply, diffArr_apply, projArr_apply, projArr_apply, hiddenArr_apply, hiddenArr_apply, hiddenArr_apply, hiddenArr_apply]
    rfl
  unfold out
  rw [outArr_apply, meanArr_apply, spreadArr_apply, hl]
  rfl

end Cert.ReferenceIdeal.RefRead

end
-- ==== Proof.lean ====
/-
  A Pallas kernel and its jnp reference compute the same 128 × 64 × 64 array on the extended reals.

  Per batch row (a 4096 × 128 matrix X) both compute a two-unit hidden layer h = max(X · w1ᵀ + b1, 0), its projection
  p = h · w2ᵀ + b2 to one number per position, the logarithms ℓ(s) = log(√((p(s + 2) − p(s))²) + ε) of the sizes of the 4094
  lag-two differences, their mean (the sum over 4094) and unbiased spread (the square root of the sum of squared deviations
  over 4093), and the 64 features tanh(mean · w3(j, 0) + spread · w3(j, 1) + b3(j)), each feature row copied to the 64
  output rows of the batch entry.

  The kernel does one batch row per grid point: a matrix product with the weights contracted on their last axis, two
  multiply-adds for the projection, lane and sublane sums, and a broadcast store of one 64 × 64 block. The reference does all
  rows at once with three dot products, reductions along an axis, and a variance helper that computes its divisor as 4094 − 1
  and guards the division by a comparison with zero. At the extended reals a change of float format is the identity, a
  product into a zero accumulator is the plain sum of products, a sum along an axis is a finite sum whatever its schedule,
  4094 − 1 is the 4093 the kernel spells and is positive, so both sides are the one function of Proof/Spec.lean, index by
  index; no law used needs the inputs to be finite.

  The kernel's side: Proof/KernelRow.lean (the body's column of logarithms, position by position), Proof/KernelBlock.lean
  (the block a grid point leaves), Proof/KernelArray.lean (the 128 blocks cover the output; the run). The reference's side:
  Proof/RefRun.lean (its run as sixty-two operations and their composition), Proof/RefRead.lean (the composition read at an
  index). Nothing was rewritten when the kernel was idealized, so that claim is trivial.
-/
import proofs.«102095_j71683004170598_1_alg».proof.Defs
import proofs.«102095_j71683004170598_1_alg».proof.Proof.Gen.Kernel
import proofs.«102095_j71683004170598_1_alg».proof.Proof.Gen.Kernel.Skeleton
import proofs.«102095_j71683004170598_1_alg».proof.Proof.Gen.Kernel.Launch
import proofs.«102095_j71683004170598_1_alg».proof.Proof.Gen.Kernel.Points
import proofs.«102095_j71683004170598_1_alg».proof.Proof.Gen.Kernel.Frame
import proofs.«102095_j71683004170598_1_alg».proof.Proof.Gen.KernelIdeal
import proofs.«102095_j71683004170598_1_alg».proof.Proof.Gen.KernelIdeal.Skeleton
import proofs.«102095_j71683004170598_1_alg».proof.Proof.Gen.KernelIdeal.Launch
import proofs.«102095_j71683004170598_1_alg».proof.Proof.Gen.KernelIdeal.Points
import proofs.«102095_j71683004170598_1_alg».proof.Proof.Gen.KernelIdeal.Frame
import proofs.«102095_j71683004170598_1_alg».proof.Proof.Gen.ReferenceIdeal
import proofs.«102095_j71683004170598_1_alg».proof.Proof.Gen.Pre_finite_inputs
import proofs.«102095_j71683004170598_1_alg».proof.Proof.KernelArray
import proofs.«102095_j71683004170598_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Idealizing the kernel rewrote no operation. -/
theorem preserves : Cert.preserves_Kernel_KernelIdeal := trivial

/-- From memories that agree on the seven arguments both programs end with the result array at the specification's result
    of those arguments: the kernel's by its 128 blocks, the reference's by its composition read at an index. -/
theorem algebraic : Cert.algebraic_KernelIdeal_ReferenceIdeal := by
  intro m ρ m' ρ' _ hagree
  refine ⟨fun c => Cert.DelayStats.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Array.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.out_eq_result, (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
